-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x16 : Shape := ⟨2, ![256, 16]⟩
abbrev S16 : Shape := ⟨1, ![16]⟩
abbrev S16x2 : Shape := ⟨2, ![16, 2]⟩
abbrev S2 : Shape := ⟨1, ![2]⟩
abbrev S2x6400000 : Shape := ⟨2, ![2, 6400000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x256 .f32) (main_arg1 : FVec F S256x16 .f32) (main_arg2 : FVec F S16 .f32) (main_arg3 : FVec F S16x2 .f32) (main_arg4 : FVec F S2 .f32) (main_arg5 : IVec S2x6400000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg4 main_v13 main_v16
-- ==== Kernel.lean ====
abbrev S100000x256 : Shape := ⟨2, ![100000, 256]⟩
abbrev S256x16 : Shape := ⟨2, ![256, 16]⟩
abbrev S16 : Shape := ⟨1, ![16]⟩
abbrev S16x2 : Shape := ⟨2, ![16, 2]⟩
abbrev S2 : Shape := ⟨1, ![2]⟩
abbrev S2x6400000 : Shape := ⟨2, ![2, 6400000]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x1 : Shape := ⟨2, ![100000, 1]⟩
abbrev S100000x16 : Shape := ⟨2, ![100000, 16]⟩
abbrev S5000x256 : Shape := ⟨2, ![5000, 256]⟩
abbrev S5000x1 : Shape := ⟨2, ![5000, 1]⟩
abbrev S5000x16 : Shape := ⟨2, ![5000, 16]⟩
abbrev S6500000x16 : Shape := ⟨2, ![6500000, 16]⟩
abbrev S1x16 : Shape := ⟨2, ![1, 16]⟩
abbrev S100000x2 : Shape := ⟨2, ![100000, 2]⟩
abbrev S5000x2 : Shape := ⟨2, ![5000, 2]⟩
abbrev S6500000x2 : Shape := ⟨2, ![6500000, 2]⟩
abbrev S1x2 : Shape := ⟨2, ![1, 2]⟩
abbrev S5000 : Shape := ⟨1, ![5000]⟩

abbrev nBuf : Space → Nat
  | .hbm => 59
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S256x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S2x6400000, .i32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x16, .f32⟩
  | .hbm, ⟨29, _⟩ => ⟨S_, .i32⟩
  | .hbm, ⟨30, _⟩ => ⟨S6500000, .i32⟩
  | .hbm, ⟨31, _⟩ => ⟨S6500000, .i1⟩
  | .hbm, ⟨32, _⟩ => ⟨S_, .i32⟩
  | .hbm, ⟨33, _⟩ => ⟨S6500000, .i32⟩
  | .hbm, ⟨34, _⟩ => ⟨S6500000, .i32⟩
  | .hbm, ⟨35, _⟩ => ⟨S6500000, .i32⟩
  | .hbm, ⟨36, _⟩ => ⟨S6500000x1, .i32⟩
  | .hbm, ⟨37, _⟩ => ⟨S6500000x16, .f32⟩
  | .hbm, ⟨38, _⟩ => ⟨S_, .f32⟩
  | .hbm, ⟨39, _⟩ => ⟨S100000x16, .f32⟩
  | .hbm, ⟨40, _⟩ => ⟨S6500000x1, .i32⟩
  | .hbm, ⟨41, _⟩ => ⟨S100000x16, .f32⟩
  | .hbm, ⟨42, _⟩ => ⟨S1x16, .f32⟩
  | .hbm, ⟨43, _⟩ => ⟨S100000x2, .f32⟩
  | .hbm, ⟨44, _⟩ => ⟨S_, .i32⟩
  | .hbm, ⟨45, _⟩ => ⟨S6500000, .i32⟩
  | .hbm, ⟨46, _⟩ => ⟨S6500000, .i1⟩
  | .hbm, ⟨47, _⟩ => ⟨S_, .i32⟩
  | .hbm, ⟨48, _⟩ => ⟨S6500000, .i32⟩
  | .hbm, ⟨49, _⟩ => ⟨S6500000, .i32⟩
  | .hbm, ⟨50, _⟩ => ⟨S6500000, .i32⟩
  | .hbm, ⟨51, _⟩ => ⟨S6500000x1, .i32⟩
  | .hbm, ⟨52, _⟩ => ⟨S6500000x2, .f32⟩
  | .hbm, ⟨53, _⟩ => ⟨S_, .f32⟩
  | .hbm, ⟨54, _⟩ => ⟨S100000x2, .f32⟩
  | .hbm, ⟨55, _⟩ => ⟨S6500000x1, .i32⟩
  | .hbm, ⟨56, _⟩ => ⟨S100000x2, .f32⟩
  | .hbm, ⟨57, _⟩ => ⟨S1x2, .f32⟩
  | .hbm, ⟨58, _⟩ => ⟨S100000x2, .f32⟩
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S16x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | .local _ .vmem, ⟨16, _⟩ => ⟨S5000x2, .f32⟩
  | .local _ .vmem, ⟨17, _⟩ => ⟨S5000x1, .f32⟩
  | .local _ .vmem, ⟨18, _⟩ => ⟨S5000x1, .f32⟩
  | .local _ .vmem, ⟨19, _⟩ => ⟨S1x2, .f32⟩
  | .local _ .vmem, ⟨20, _⟩ => ⟨S5000x2, .f32⟩
  | .local _ .vmem, ⟨21, _⟩ => ⟨S5000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  scatter_S100000_S6500000x1_S6500000_n_0_0_1_wf : ScatterDims.WF S100000 S6500000x1 S6500000 [] [0] [0] 1
  dot_S5000x256_S256x16_S5000x16_1_0_0_1_n_n_wf : DotDims.WF S5000x256 S256x16 S5000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S5000x16_S16x2_S5000x2_1_0_0_1_n_n_wf : DotDims.WF S5000x16 S16x2 S5000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x2.size a ≤ S16x2.size a
  hwx1_3 : ∀ i : grid1.Coords, EltTy.bits .f32 = 32 ∨ (Rect.block (s := S16x2) S16x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x2.size a ≤ S100000x2.size a
  hwx1_4 : ∀ i : grid1.Coords, EltTy.bits .f32 = 32 ∨ (Rect.block (s := S100000x2) S5000x2.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x2.size a ≤ S100000x2.size a
  hwx2_0 : ∀ i : grid2.Coords, EltTy.bits .f32 = 32 ∨ (Rect.block (s := S100000x2) S5000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x2.size a ≤ S100000x2.size a
  hwx2_3 : ∀ i : grid2.Coords, EltTy.bits .f32 = 32 ∨ (Rect.block (s := S100000x2) S5000x2.size (cc2_transform_3 i) (hinb2_3 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S16x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S256x16 : Shape := ⟨2, ![256, 16]⟩
abbrev S16 : Shape := ⟨1, ![16]⟩
abbrev S16x2 : Shape := ⟨2, ![16, 2]⟩
abbrev S2 : Shape := ⟨1, ![2]⟩
abbrev S2x6400000 : Shape := ⟨2, ![2, 6400000]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S6500000x16 : Shape := ⟨2, ![6500000, 16]⟩
abbrev S1x16 : Shape := ⟨2, ![1, 16]⟩
abbrev S100000x2 : Shape := ⟨2, ![100000, 2]⟩
abbrev S6500000x2 : Shape := ⟨2, ![6500000, 2]⟩
abbrev S1x2 : Shape := ⟨2, ![1, 2]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S2x6400000, .i32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S6500000, .i32⟩
  | .hbm, ⟨29, _⟩ => ⟨S6500000, .i1⟩
  | .hbm, ⟨30, _⟩ => ⟨S_, .i32⟩
  | .hbm, ⟨31, _⟩ => ⟨S6500000, .i32⟩
  | .hbm, ⟨32, _⟩ => ⟨S6500000, .i32⟩
  | .hbm, ⟨33, _⟩ => ⟨S6500000, .i32⟩
  | .hbm, ⟨34, _⟩ => ⟨S6500000x1, .i32⟩
  | .hbm, ⟨35, _⟩ => ⟨S6500000, .f32⟩
  | .hbm, ⟨36, _⟩ => ⟨S_, .i32⟩
  | .hbm, ⟨37, _⟩ => ⟨S6500000, .i32⟩
  | .hbm, ⟨38, _⟩ => ⟨S6500000, .i1⟩
  | .hbm, ⟨39, _⟩ => ⟨S_, .i32⟩
  | .hbm, ⟨40, _⟩ => ⟨S6500000, .i32⟩
  | .hbm, ⟨41, _⟩ => ⟨S6500000, .i32⟩
  | .hbm, ⟨42, _⟩ => ⟨S6500000, .i32⟩
  | .hbm, ⟨43, _⟩ => ⟨S6500000x1, .i32⟩
  | .hbm, ⟨44, _⟩ => ⟨S6500000, .f32⟩
  | .hbm, ⟨45, _⟩ => ⟨S6500000, .f32⟩
  | .hbm, ⟨46, _⟩ => ⟨S100000x16, .f32⟩
  | .hbm, ⟨47, _⟩ => ⟨S_, .i32⟩
  | .hbm, ⟨48, _⟩ => ⟨S6500000, .i32⟩
  | .hbm, ⟨49, _⟩ => ⟨S6500000, .i1⟩
  | .hbm, ⟨50, _⟩ => ⟨S_, .i32⟩
  | .hbm, ⟨51, _⟩ => ⟨S6500000, .i32⟩
  | .hbm, ⟨52, _⟩ => ⟨S6500000, .i32⟩
  | .hbm, ⟨53, _⟩ => ⟨S6500000, .i32⟩
  | .hbm, ⟨54, _⟩ => ⟨S6500000x1, .i32⟩
  | .hbm, ⟨55, _⟩ => ⟨S6500000x16, .f32⟩
  | .hbm, ⟨56, _⟩ => ⟨S6500000x1, .f32⟩
  | .hbm, ⟨57, _⟩ => ⟨S6500000x16, .f32⟩
  | .hbm, ⟨58, _⟩ => ⟨S6500000x16, .f32⟩
  | .hbm, ⟨59, _⟩ => ⟨S_, .f32⟩
  | .hbm, ⟨60, _⟩ => ⟨S100000x16, .f32⟩
  | .hbm, ⟨61, _⟩ => ⟨S6500000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x2, .f32⟩
  | .hbm, ⟨70, _⟩ => ⟨S_, .i32⟩
  | .hbm, ⟨71, _⟩ => ⟨S6500000, .i32⟩
  | .hbm, ⟨72, _⟩ => ⟨S6500000, .i1⟩
  | .hbm, ⟨73, _⟩ => ⟨S_, .i32⟩
  | .hbm, ⟨74, _⟩ => ⟨S6500000, .i32⟩
  | .hbm, ⟨75, _⟩ => ⟨S6500000, .i32⟩
  | .hbm, ⟨76, _⟩ => ⟨S6500000, .i32⟩
  | .hbm, ⟨77, _⟩ => ⟨S6500000x1, .i32⟩
  | .hbm, ⟨78, _⟩ => ⟨S6500000x2, .f32⟩
  | .hbm, ⟨79, _⟩ => ⟨S6500000x1, .f32⟩
  | .hbm, ⟨80, _⟩ => ⟨S6500000x2, .f32⟩
  | .hbm, ⟨81, _⟩ => ⟨S6500000x2, .f32⟩
  | .hbm, ⟨82, _⟩ => ⟨S_, .f32⟩
  | .hbm, ⟨83, _⟩ => ⟨S100000x2, .f32⟩
  | .hbm, ⟨84, _⟩ => ⟨S6500000x1, .i32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x2, .f32⟩
  | .hbm, ⟨96, _⟩ => ⟨S100000x2, .f32⟩
  | .hbm, ⟨97, _⟩ => ⟨S100000x2, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x2, .f32⟩
  | .hbm, ⟨103, _⟩ => ⟨S100000x2, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6500000x1_S6500000x2_0_1 : S6500000x1.BroadcastsInDim S6500000x2 (![0, 1] : Fin 2 → Fin S6500000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x256_S256x16_S100000x16_1_0_0_1_n_n_wf : DotDims.WF S100000x256 S256x16 S100000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x2_S100000x2_1_0_0_1_n_n_wf : DotDims.WF S100000x16 S16x2 S100000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf

class Facts : Prop extends Facts₀ where

variable [Facts]
-- ==== Proof.Spec.lean ====
/-
  A two-layer graph convolution, written index by index over the extended reals.

  Notation. `x` is the node-feature matrix, `w` a weight matrix, `d` the column of per-node scale factors
  (the inverse square roots of the in-degrees), `b` a bias row, `a` an aggregated matrix (a sum of gathered rows).
  * `hs0`: the first dense stage, `(x · w)` with row `n` scaled by `d n`.
  * `hs2`: the second dense stage, `relu (a · d + b) · w` with row `n` scaled by `d n`.
  * `lsm`: the last stage, the row-wise log-softmax of `a · d + b` over two classes: the logits less their maximum,
    less the logarithm of the sum of the exponentials of those differences.
-/
import Idealize.ShloMosaic.Lib.ValueIdx
import Idealize.ShloMosaic.PureOps.Ideal

noncomputable section

namespace Cert.GCN

open Idealize.ShloMosaic Idealize.ShloMosaic.ValueIdx
open scoped BigOperators

/-- The pattern of negative infinity, the value a row maximum starts from. -/
abbrev negInf : EReal := FloatOps.ofBits (F := Ideal) .f32 0xFF800000#32

/-- Entry `(n, j)` of `(x · w)` scaled by `d n`. -/
def hs0c (x : (⟨2, ![100000, 256]⟩ : Shape).Idx → EReal) (w : (⟨2, ![256, 16]⟩ : Shape).Idx → EReal)
    (d : (⟨2, ![100000, 1]⟩ : Shape).Idx → EReal) (n : Fin 100000) (j : Fin 16) : EReal :=
  (∑ k : Fin 256, x (ix2 n k) * w (ix2 k j)) * d (ix2 n (0 : Fin 1))

/-- The first dense stage as one array. -/
def hs0 (x : (⟨2, ![100000, 256]⟩ : Shape).Idx → EReal) (w : (⟨2, ![256, 16]⟩ : Shape).Idx → EReal)
    (d : (⟨2, ![100000, 1]⟩ : Shape).Idx → EReal) : (⟨2, ![100000, 16]⟩ : Shape).Idx → EReal :=
  fun i => hs0c x w d (i 0) (i 1)

/-- Entry `(n, c)` of `relu (a · d + b) · w` scaled by `d n`. -/
def hs2c (a : (⟨2, ![100000, 16]⟩ : Shape).Idx → EReal) (d : (⟨2, ![100000, 1]⟩ : Shape).Idx → EReal)
    (b : (⟨2, ![1, 16]⟩ : Shape).Idx → EReal) (w : (⟨2, ![16, 2]⟩ : Shape).Idx → EReal) (n : Fin 100000) (c : Fin 2) : EReal :=
  (∑ j : Fin 16, max (a (ix2 n j) * d (ix2 n (0 : Fin 1)) + b (ix2 (0 : Fin 1) j)) 0 * w (ix2 j c)) * d (ix2 n (0 : Fin 1))

/-- The second dense stage as one array. -/
def hs2 (a : (⟨2, ![100000, 16]⟩ : Shape).Idx → EReal) (d : (⟨2, ![100000, 1]⟩ : Shape).Idx → EReal)
    (b : (⟨2, ![1, 16]⟩ : Shape).Idx → EReal) (w : (⟨2, ![16, 2]⟩ : Shape).Idx → EReal) : (⟨2, ![100000, 2]⟩ : Shape).Idx → EReal :=
  fun i => hs2c a d b w (i 0) (i 1)

/-- The logit `(n, c)`: the aggregate scaled by `d n`, plus the bias. -/
def logit (a : (⟨2, ![100000, 2]⟩ : Shape).Idx → EReal) (d : (⟨2, ![100000, 1]⟩ : Shape).Idx → EReal)
    (b : (⟨2, ![1, 2]⟩ : Shape).Idx → EReal) (n : Fin 100000) (c : Fin 2) : EReal :=
  a (ix2 n c) * d (ix2 n (0 : Fin 1)) + b (ix2 (0 : Fin 1) c)

/-- The maximum of row `n`'s two logits, folded from negative infinity. -/
def rowMax (a : (⟨2, ![100000, 2]⟩ : Shape).Idx → EReal) (d : (⟨2, ![100000, 1]⟩ : Shape).Idx → EReal)
    (b : (⟨2, ![1, 2]⟩ : Shape).Idx → EReal) (n : Fin 100000) : EReal :=
  (Finset.univ : Finset (Fin 2)).fold max negInf (logit a d b n)

/-- Entry `(n, c)` of the row-wise log-softmax of the logits. -/
def lsmc (a : (⟨2, ![100000, 2]⟩ : Shape).Idx → EReal) (d : (⟨2, ![100000, 1]⟩ : Shape).Idx → EReal)
    (b : (⟨2, ![1, 2]⟩ : Shape).Idx → EReal) (n : Fin 100000) (c : Fin 2) : EReal :=
  (logit a d b n c - rowMax a d b n)
    - Ideal.log (∑ c' : Fin 2, Ideal.exp (logit a d b n c' - rowMax a d b n))

/-- The last stage as one array. -/
def lsm (a : (⟨2, ![100000, 2]⟩ : Shape).Idx → EReal) (d : (⟨2, ![100000, 1]⟩ : Shape).Idx → EReal)
    (b : (⟨2, ![1, 2]⟩ : Shape).Idx → EReal) : (⟨2, ![100000, 2]⟩ : Shape).Idx → EReal :=
  fun i => lsmc a d b (i 0) (i 1)

end Cert.GCN

end
-- ==== Proof.KHost.lean ====
/-
  The idealized kernel program's host side, read as values: what each stretch of host operations leaves in the buffers the
  regions read, and the whole program's result as one composition of the three dense stages with the two aggregations.

  * `srcOf`, `tgtOf`: the edge list's source and target rows with one self-loop per node appended.
  * `degOf`, `disOf`, `disCol`: the in-degree of every node (a scatter-add of ones), its inverse square root where the degree
    is positive and zero elsewhere, and that vector as a column.
  * `normCol`: a vector of row indices with the negative ones wrapped around by the number of rows, as a column of start
    indices; `col`: a vector of row indices as a column.
  * `aggr16`, `aggr2`: the aggregation `out[t] = Σ_{e : tgt e = t} X[src e]` of the rows of a matrix of 16 or 2 columns.
-/
import proofs.«142645_j55095840473679_2_alg».proof.Proof.Gen.KernelIdeal.Frame
import proofs.«142645_j55095840473679_2_alg».proof.Proof.Spec
import Idealize.ShloMosaic.Lib.StableHlo.Run

noncomputable section

namespace Cert.KernelIdeal.KH

open Idealize.ShloMosaic Idealize.ShloMosaic.TcCoe Idealize.SL.Sem Idealize.ShloMosaic.StableHlo
open Cert.KernelIdeal Cert.KernelIdeal.Gen

/-! ## The stages' names -/

/-- The source rows: row 0 of the edge list, then every node once. -/
def srcOf (ei : IVec S2x6400000 32) : IVec S6500000 32 :=
  concatenate S6500000 0 [⟨S6400000, shapeCast S6400000 (extractStridedSlice S1x6400000 ![0, 0] ei slices_S2x6400000_S1x6400000_0_0) shapeCasts_S1x6400000_S6400000⟩,
    ⟨S100000, iotaInDim S100000 32 0⟩] concatenates_S6400000_S100000_S6500000_d0

/-- The target rows: row 1 of the edge list, then every node once. -/
def tgtOf (ei : IVec S2x6400000 32) : IVec S6500000 32 :=
  concatenate S6500000 0 [⟨S6400000, shapeCast S6400000 (extractStridedSlice S1x6400000 ![1, 0] ei slices_S2x6400000_S1x6400000_1_0) shapeCasts_S1x6400000_S6400000⟩,
    ⟨S100000, iotaInDim S100000 32 0⟩] concatenates_S6400000_S100000_S6500000_d0

/-- A vector of row indices as a column of start indices. -/
def col (v : IVec S6500000 32) : IVec S6500000x1 32 := broadcastInDim S6500000x1 ![0] bcast_S6500000_S6500000x1_0 v

/-- Row indices with the negative ones wrapped around by the number of rows, as a column of start indices. -/
def normCol (v : IVec S6500000 32) : IVec S6500000x1 32 :=
  broadcastInDim S6500000x1 ![0] bcast_S6500000_S6500000x1_0
    (select (cmpi .slt v (broadcastInDim S6500000 ![] bcast_S_S6500000 (constantI S_ 32 0#32)))
      (addi v (broadcastInDim S6500000 ![] bcast_S_S6500000 (constantI S_ 32 100000#32))) v)

/-- The in-degrees: ones added at every target row. -/
def degOf (tgt : IVec S6500000 32) : FVec Ideal S100000 .f32 :=
  Host.scatterAdd scatter_S100000_S6500000x1_S6500000_n_0_0_1
    (broadcastInDim S100000 ![] bcast_S_S100000 (constant (F := Ideal) S_ .f32 0x00000000#32)) (col tgt)
    (broadcastInDim S6500000 ![] bcast_S_S6500000 (constant (F := Ideal) S_ .f32 0x3F800000#32))

/-- The scale factors: the inverse square root of a positive degree, zero elsewhere. -/
def disOf (tgt : IVec S6500000 32) : FVec Ideal S100000 .f32 :=
  select (cmpf (F := Ideal) .ogt (degOf tgt) (broadcastInDim S100000 ![] bcast_S_S100000 (constant (F := Ideal) S_ .f32 0x00000000#32)))
    (Host.rsqrt (F := Ideal) (degOf tgt))
    (broadcastInDim S100000 ![] bcast_S_S100000 (id (constant (F := Ideal) S_ .f32 0x00000000#32)))

/-- The scale factors as a column. -/
def disCol (tgt : IVec S6500000 32) : FVec Ideal S100000x1 .f32 := shapeCast S100000x1 (disOf tgt) shapeCasts_S100000_S100000x1

/-- Rows of a 16-column matrix gathered at the sources and added at the targets. -/
def aggr16 (src tgt : IVec S6500000 32) (X : FVec Ideal S100000x16 .f32) : FVec Ideal S100000x16 .f32 :=
  Host.scatterAdd scatter_S100000x16_S6500000x1_S6500000x16_1_0_0_1
    (broadcastInDim S100000x16 ![] bcast_S_S100000x16 (constant (F := Ideal) S_ .f32 0x00000000#32)) (col tgt)
    (Host.gather gather_S100000x16_S6500000x1_S6500000x16_1_0_n_n_0_1_116 X (normCol src))

/-- Rows of a 2-column matrix gathered at the sources and added at the targets. -/
def aggr2 (src tgt : IVec S6500000 32) (X : FVec Ideal S100000x2 .f32) : FVec Ideal S100000x2 .f32 :=
  Host.scatterAdd scatter_S100000x2_S6500000x1_S6500000x2_1_0_0_1
    (broadcastInDim S100000x2 ![] bcast_S_S100000x2 (constant (F := Ideal) S_ .f32 0x00000000#32)) (col tgt)
    (Host.gather gather_S100000x2_S6500000x1_S6500000x2_1_0_n_n_0_1_12 X (normCol src))

/-- THE KERNEL PROGRAM'S RESULT as one function of the arguments: the scale factors from the targets' degrees; the first
    dense stage; its rows aggregated; the second dense stage; its rows aggregated; the log-softmax of the scaled, biased result. -/
def kernelOut (x : FVec Ideal S100000x256 .f32) (w1 : FVec Ideal S256x16 .f32) (b1 : FVec Ideal S16 .f32)
    (w2 : FVec Ideal S16x2 .f32) (b2 : FVec Ideal S2 .f32) (ei : IVec S2x6400000 32) : FVec Ideal S100000x2 .f32 :=
  Cert.GCN.lsm
    (aggr2 (srcOf ei) (tgtOf ei)
      (Cert.GCN.hs2 (aggr16 (srcOf ei) (tgtOf ei) (Cert.GCN.hs0 x w1 (disCol (tgtOf ei)))) (disCol (tgtOf ei))
        (shapeCast S1x16 b1 shapeCasts_S16_S1x16) w2))
    (disCol (tgtOf ei)) (shapeCast S1x2 b2 shapeCasts_S2_S1x2)

/-! ## Each stretch of host operations, from any buffer contents -/

section Stretches

variable (U : Valuation τ sig (Elt Ideal))

/-! ### The first stretch: the rows' lists, the degrees, the comparison and the inverse square root -/

theorem ops0_v3 : after (hostOps0 (F := Ideal)) U (Proc.devRef .tc main_v3) = srcOf (U (Proc.devRef .tc main_arg5)) := by
  after_results <;> rfl
theorem ops0_v6 : after (hostOps0 (F := Ideal)) U (Proc.devRef .tc main_v6) = tgtOf (U (Proc.devRef .tc main_arg5)) := by
  after_results <;> rfl
theorem ops0_v12 : after (hostOps0 (F := Ideal)) U (Proc.devRef .tc main_v12)
    = cmpf (F := Ideal) .ogt (degOf (tgtOf (U (Proc.devRef .tc main_arg5))))
        (broadcastInDim S100000 ![] bcast_S_S100000 (constant (F := Ideal) S_ .f32 0x00000000#32)) := by
  after_results <;> rfl
theorem ops0_v13 : after (hostOps0 (F := Ideal)) U (Proc.devRef .tc main_v13)
    = Host.rsqrt (F := Ideal) (degOf (tgtOf (U (Proc.devRef .tc main_arg5)))) := by
  after_results <;> rfl
theorem ops0_cst_2 : after (hostOps0 (F := Ideal)) U (Proc.devRef .tc main_cst_2) = constant (F := Ideal) S_ .f32 0x00000000#32 := by
  after_results <;> rfl
theorem ops0_arg0 : after (hostOps0 (F := Ideal)) U (Proc.devRef .tc main_arg0) = U (Proc.devRef .tc main_arg0) := by after_results
theorem ops0_arg1 : after (hostOps0 (F := Ideal)) U (Proc.devRef .tc main_arg1) = U (Proc.devRef .tc main_arg1) := by after_results
theorem ops0_arg2 : after (hostOps0 (F := Ideal)) U (Proc.devRef .tc main_arg2) = U (Proc.devRef .tc main_arg2) := by after_results
theorem ops0_arg3 : after (hostOps0 (F := Ideal)) U (Proc.devRef .tc main_arg3) = U (Proc.devRef .tc main_arg3) := by after_results
theorem ops0_arg4 : after (hostOps0 (F := Ideal)) U (Proc.devRef .tc main_arg4) = U (Proc.devRef .tc main_arg4) := by after_results

/-! ### The second stretch: the selection between the inverse square root and zero -/

theorem ops01_v14 : after (hostOps0_1 (F := Ideal)) U (Proc.devRef .tc main_v14)
    = select (U (Proc.devRef .tc main_v12)) (U (Proc.devRef .tc main_v13))
        (broadcastInDim S100000 ![] bcast_S_S100000 (id (U (Proc.devRef .tc main_cst_2)))) := by
  after_results <;> rfl
theorem ops01_v3 : after (hostOps0_1 (F := Ideal)) U (Proc.devRef .tc main_v3) = U (Proc.devRef .tc main_v3) := by after_results
theorem ops01_v6 : after (hostOps0_1 (F := Ideal)) U (Proc.devRef .tc main_v6) = U (Proc.devRef .tc main_v6) := by after_results
theorem ops01_arg0 : after (hostOps0_1 (F := Ideal)) U (Proc.devRef .tc main_arg0) = U (Proc.devRef .tc main_arg0) := by after_results
theorem ops01_arg1 : after (hostOps0_1 (F := Ideal)) U (Proc.devRef .tc main_arg1) = U (Proc.devRef .tc main_arg1) := by after_results
theorem ops01_arg2 : after (hostOps0_1 (F := Ideal)) U (Proc.devRef .tc main_arg2) = U (Proc.devRef .tc main_arg2) := by after_results
theorem ops01_arg3 : after (hostOps0_1 (F := Ideal)) U (Proc.devRef .tc main_arg3) = U (Proc.devRef .tc main_arg3) := by after_results
theorem ops01_arg4 : after (hostOps0_1 (F := Ideal)) U (Proc.devRef .tc main_arg4) = U (Proc.devRef .tc main_arg4) := by after_results

/-! ### The third stretch: the scale factors as a column -/

theorem ops02_v15 : after (hostOps0_2 (F := Ideal)) U (Proc.devRef .tc main_v15)
    = shapeCast S100000x1 (U (Proc.devRef .tc main_v14)) shapeCasts_S100000_S100000x1 := by
  after_results <;> rfl
theorem ops02_v3 : after (hostOps0_2 (F := Ideal)) U (Proc.devRef .tc main_v3) = U (Proc.devRef .tc main_v3) := by after_results
theorem ops02_v6 : after (hostOps0_2 (F := Ideal)) U (Proc.devRef .tc main_v6) = U (Proc.devRef .tc main_v6) := by after_results
theorem ops02_arg0 : after (hostOps0_2 (F := Ideal)) U (Proc.devRef .tc main_arg0) = U (Proc.devRef .tc main_arg0) := by after_results
theorem ops02_arg1 : after (hostOps0_2 (F := Ideal)) U (Proc.devRef .tc main_arg1) = U (Proc.devRef .tc main_arg1) := by after_results
theorem ops02_arg2 : after (hostOps0_2 (F := Ideal)) U (Proc.devRef .tc main_arg2) = U (Proc.devRef .tc main_arg2) := by after_results
theorem ops02_arg3 : after (hostOps0_2 (F := Ideal)) U (Proc.devRef .tc main_arg3) = U (Proc.devRef .tc main_arg3) := by after_results
theorem ops02_arg4 : after (hostOps0_2 (F := Ideal)) U (Proc.devRef .tc main_arg4) = U (Proc.devRef .tc main_arg4) := by after_results

/-! ### Between the first two regions: the first aggregation, and the first bias as a row -/

theorem ops1_v26 : after (hostOps1 (F := Ideal)) U (Proc.devRef .tc main_v26)
    = aggr16 (U (Proc.devRef .tc main_v3)) (U (Proc.devRef .tc main_v6)) (U (Proc.devRef .tc main_v16)) := by
  after_results <;> rfl
theorem ops1_v27 : after (hostOps1 (F := Ideal)) U (Proc.devRef .tc main_v27)
    = shapeCast S1x16 (U (Proc.devRef .tc main_arg2)) shapeCasts_S16_S1x16 := by
  after_results <;> rfl
theorem ops1_v3 : after (hostOps1 (F := Ideal)) U (Proc.devRef .tc main_v3) = U (Proc.devRef .tc main_v3) := by after_results
theorem ops1_v6 : after (hostOps1 (F := Ideal)) U (Proc.devRef .tc main_v6) = U (Proc.devRef .tc main_v6) := by after_results
theorem ops1_v15 : after (hostOps1 (F := Ideal)) U (Proc.devRef .tc main_v15) = U (Proc.devRef .tc main_v15) := by after_results
theorem ops1_arg3 : after (hostOps1 (F := Ideal)) U (Proc.devRef .tc main_arg3) = U (Proc.devRef .tc main_arg3) := by after_results
theorem ops1_arg4 : after (hostOps1 (F := Ideal)) U (Proc.devRef .tc main_arg4) = U (Proc.devRef .tc main_arg4) := by after_results

/-! ### Between the last two regions: the second aggregation, and the second bias as a row -/

theorem ops2_v38 : after (hostOps2 (F := Ideal)) U (Proc.devRef .tc main_v38)
    = aggr2 (U (Proc.devRef .tc main_v3)) (U (Proc.devRef .tc main_v6)) (U (Proc.devRef .tc main_v28)) := by
  after_results <;> rfl
theorem ops2_v39 : after (hostOps2 (F := Ideal)) U (Proc.devRef .tc main_v39)
    = shapeCast S1x2 (U (Proc.devRef .tc main_arg4)) shapeCasts_S2_S1x2 := by
  after_results <;> rfl
theorem ops2_v15 : after (hostOps2 (F := Ideal)) U (Proc.devRef .tc main_v15) = U (Proc.devRef .tc main_v15) := by after_results

end Stretches

end Cert.KernelIdeal.KH

end
-- ==== Proof.LibLayoutCols.lean ====
/-
  Layout operations of small rank read at an index written by coordinates: the forms a kernel meets when it keeps a
  reduced axis as a unit axis (`keepdims`) and when it expands a matrix over a new middle axis.

  * a vector of length `a` cast to a column `[a, 1]`;
  * a column `[a, 1]` broadcast along its unit axis to `[a, b]`;
  * a matrix `[a, b]` cast to `[a, 1, b]`, and that broadcast along the new axis to `[a, k, b]`;
  * a column `[k, 1]` cast to `[1, k, 1]`, and that broadcast along both unit axes to `[a, k, b]`.
  A cast keeps the row-major position of an element; a broadcast reads coordinate `0` on the operand's unit axes.
-/
import Idealize.ShloMosaic.Lib.Pipeline.Value
import Idealize.ShloMosaic.Lib.ValueIdx

namespace Cert.LibLayoutCols

open Idealize.ShloMosaic Idealize.ShloMosaic.ValueIdx

variable {α : Type}

/-- A vector of length `a` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix `[a, b]` cast to `[a, 1, b]` reads, at `(p, u, c)`, the matrix at `(p, c)`. -/
theorem shapeCast_ab_a1b_apply {a b : ℕ} (x : (⟨2, ![a, b]⟩ : Shape).Idx → α) (h : (⟨2, ![a, b]⟩ : Shape).ShapeCasts ⟨3, ![a, 1, b]⟩)
    (p : Fin a) (u : Fin 1) (c : Fin b) : shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An array `[a, 1, b]` broadcast to `[a, k, b]` reads, at `(p, q, c)`, the operand at `(p, 0, c)`. -/
theorem broadcastTo_a1b_akb_apply {a k b : ℕ} (x : (⟨3, ![a, 1, b]⟩ : Shape).Idx → α)
    (h : (⟨3, ![a, 1, b]⟩ : Shape).Broadcasts ⟨3, ![a, k, b]⟩) (p : Fin a) (q : Fin k) (c : Fin b) :
    broadcastTo ⟨3, ![a, k, b]⟩ x h (ix3 p q c) = x (ix3 p (0 : Fin 1) c) := by
  refine broadcastTo_apply x h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

/-- A column `[k, 1]` cast to `[1, k, 1]` reads, at `(u, q, w)`, the column at row `q`. -/
theorem shapeCast_k1_1k1_apply {k : ℕ} (x : (⟨2, ![k, 1]⟩ : Shape).Idx → α) (h : (⟨2, ![k, 1]⟩ : Shape).ShapeCasts ⟨3, ![1, k, 1]⟩)
    (u : Fin 1) (q : Fin k) (w : Fin 1) : shapeCast ⟨3, ![1, k, 1]⟩ x h (ix3 u q w) = x (ix2 q (0 : Fin 1)) :=
  shapeCast_apply x h _ _ (by
    have hu : u.val = 0 := by omega
    have hw : w.val = 0 := by omega
    rw [Shape.rowMajor_val_three, Shape.rowMajor_val_two]
    show q.val * 1 + 0 = (u.val * k + q.val) * 1 + w.val
    rw [hu, hw, Nat.zero_mul, Nat.zero_add])

/-- An array `[1, k, 1]` broadcast to `[a, k, b]` reads, at `(p, q, c)`, the operand at `(0, q, 0)`. -/
theorem broadcastTo_1k1_akb_apply {a k b : ℕ} (x : (⟨3, ![1, k, 1]⟩ : Shape).Idx → α)
    (h : (⟨3, ![1, k, 1]⟩ : Shape).Broadcasts ⟨3, ![a, k, b]⟩) (p : Fin a) (q : Fin k) (c : Fin b) :
    broadcastTo ⟨3, ![a, k, b]⟩ x h (ix3 p q c) = x (ix3 (0 : Fin 1) q (0 : Fin 1)) := by
  refine broadcastTo_apply x h (ix3 p q c) (ix3 (0 : Fin 1) q (0 : Fin 1)) fun ax => ?_
  match ax with
  | ⟨0, _⟩ => rfl
  | ⟨1, _⟩ =>
    show q.val = if k = 1 then 0 else q.val
    split
    · have := q.isLt; omega
    · rfl
  | ⟨2, _⟩ => rfl

end Cert.LibLayoutCols
-- ==== Proof.Region0.lean ====
/-
  The first dense stage of the graph convolution, region by blocks.

  The region cuts the 100000 rows in twenty blocks of 5000. At point `t` its body loads rows `5000 t … 5000 t + 4999` of the
  feature matrix `x` and of the scale column `d`, and the weight matrix `w` whole, and stores `x · w` with row `p` scaled by
  `d p`: the product is a sum over the 256 inner positions, the column `d` is broadcast along the sixteen columns, and the
  change of float format before the product is the identity on the extended reals. Here: the product at an index; the stored
  value at an index; each loaded block as rows of its array; what a point writes back as a block of the whole stage; every row
  lies in the block of the point `row / 5000`; the array after the last point.
-/
import proofs.«142645_j55095840473679_2_alg».proof.Proof.Gen.KernelIdeal.Frame
import proofs.«142645_j55095840473679_2_alg».proof.Proof.Spec
import proofs.«142645_j55095840473679_2_alg».proof.Proof.LibLayoutCols
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RV0

open Idealize.ShloMosaic Idealize.ShloMosaic.TcCoe Idealize.SL.Sem Cert.KernelIdeal Cert.KernelIdeal.Gen Idealize.ShloMosaic.ValueIdx
open scoped BigOperators

/-! ## The body's arithmetic at one element -/

/-- The dimension numbers of the body's matrix product: rows of the left operand against columns of the right. -/
abbrev dd : DotDims S5000x256 S256x16 S5000x16 := dot_S5000x256_S256x16_S5000x16_1_0_0_1_n_n

/-- The left operand's row is the output's row. -/
theorem lhs_row (i : S5000x16.Idx) (r : dd.contr.Idx) : (dd.lhsIdx i r 0).val = (i 0).val := by
  unfold DotDims.lhsIdx
  rw [dif_neg (show ¬(0 : Fin S5000x256.rank) ∈ dd.lhsBatch by decide), dif_pos (show (0 : Fin S5000x256.rank) ∈ dd.lhsNonContracting by decide)]
  rfl

/-- The left operand's column is the contraction coordinate. -/
theorem lhs_col (i : S5000x16.Idx) (r : dd.contr.Idx) : (dd.lhsIdx i r 1).val = (r ⟨0, by decide⟩).val :=
  dd.lhsIdx_val_of_single rfl i r

/-- The right operand's row is the contraction coordinate. -/
theorem rhs_row (i : S5000x16.Idx) (r : dd.contr.Idx) : (dd.rhsIdx i r 0).val = (r ⟨0, by decide⟩).val :=
  dd.rhsIdx_val_of_single rfl i r

/-- The right operand's column is the output's column. -/
theorem rhs_col (i : S5000x16.Idx) (r : dd.contr.Idx) : (dd.rhsIdx i r 1).val = (i 1).val := by
  unfold DotDims.rhsIdx
  rw [dif_neg (show ¬(1 : Fin S256x16.rank) ∈ dd.rhsBatch by decide), dif_pos (show (1 : Fin S256x16.rank) ∈ dd.rhsNonContracting by decide)]
  rfl

/-- The matrix product into a zero accumulator, at `(p, q)`: the sum over `k` of `a (p, k) * b (k, q)`. -/
theorem matmul_at {φ₁ φ₂ : FTy} (a : FVec Ideal S5000x256 φ₁) (b : FVec Ideal S256x16 φ₂) (p : Fin 5000) (q : Fin 16) :
    matmul dd none a b (constant S5000x16 .f32 0x00000000#32) (ix2 p q) = ∑ k : Fin 256, a (ix2 p k) * b (ix2 k q) := by
  simp only [matmul]
  rw [Ideal.matmul_constant_zero_apply, ← Equiv.sum_comp (contrEquiv1 dd 256 rfl rfl).symm]
  refine Finset.sum_congr rfl fun k _ => ?_
  have hk := contrEquiv1_symm_val dd 256 rfl rfl k
  have el : dd.lhsIdx (ix2 p q) ((contrEquiv1 dd 256 rfl rfl).symm k) = ix2 p k := funext fun x => Fin.ext (by
    match x with
    | ⟨0, _⟩ => exact lhs_row _ _
    | ⟨1, _⟩ => exact (lhs_col _ _).trans hk)
  have er : dd.rhsIdx (ix2 p q) ((contrEquiv1 dd 256 rfl rfl).symm k) = ix2 k q := funext fun x => Fin.ext (by
    match x with
    | ⟨0, _⟩ => exact (rhs_row _ _).trans hk
    | ⟨1, _⟩ => exact rhs_col _ _)
  rw [el, er]

/-- The body's result at `(p, q)`: row `p` of the first block against column `q` of the second, times the scale of row `p`. -/
theorem pay_at (x0 : Vec Ideal S5000x256 .f32) (x1 : Vec Ideal S256x16 .f32) (x2 : Vec Ideal S5000x1 .f32) (p : Fin 5000) (q : Fin 16) :
    k0_pay1 x0 x1 x2 (ix2 p q) = (∑ k : Fin 256, x0 (ix2 p k) * x1 (ix2 k q)) * x2 (ix2 p (0 : Fin 1)) := by
  unfold k0_pay1
  rw [mulf_apply, matmul_at, Cert.LibLayoutCols.broadcastTo_a1_ab_apply, shapeCast_self]
  rfl

/-! ## What one grid point writes back -/

theorem hz : (![0, 0] : Fin 2 → Nat) = fun _ => 0 := funext fun a => by fin_cases a <;> rfl

/-- The printed index maps, decided once over the grid: the row-block windows sit at block `(t, 0)` with the
    output's, the second operand is held whole at block `(0, 0)`, and the output's row block is the point's number. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) = t.val :=
  (by decide +kernel : ∀ t : Fin grid0.N, _)

/-- One element of the body's result, with each block element it reads named as an element of a whole array:
    the entry `(n, q')` of the scaled product, when the block's row `p` is the array's row `n` and the block's
    column `q` is the array's column `q'`. -/
theorem point_eq (x0 : Vec Ideal S5000x256 .f32) (x1 : Vec Ideal S256x16 .f32) (x2 : Vec Ideal S5000x1 .f32)
    (a0 : (⟨2, ![100000, 256]⟩ : Shape).Idx → EReal) (a1 : (⟨2, ![256, 16]⟩ : Shape).Idx → EReal)
    (a2 : (⟨2, ![100000, 1]⟩ : Shape).Idx → EReal) (n : Fin 100000) (q' : Fin 16) (p : Fin 5000) (q : Fin 16)
    (h0 : ∀ k : Fin 256, x0 (ix2 p k) = a0 (ix2 n k)) (h1 : ∀ k : Fin 256, x1 (ix2 k q) = a1 (ix2 k q'))
    (h2 : x2 (ix2 p (0 : Fin 1)) = a2 (ix2 n (0 : Fin 1))) :
    k0_pay1 x0 x1 x2 (ix2 p q) = Cert.GCN.hs0c a0 a1 a2 n q' := by
  rw [pay_at, h2]
  unfold Cert.GCN.hs0c
  exact congrArg (· * a2 (ix2 n (0 : Fin 1))) (Finset.sum_congr rfl fun k _ => by rw [h0 k, h1 k])

/-- WHAT POINT `t` WRITES BACK is block `t` of the scaled product of the arrays as the region finds them. -/
theorem flushed_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.GCN.hs0 (V c main_arg0) (V c main_arg1) (V c main_v15)) := by
  show (cfg0.win 3).cut (grid0.coords t) ((dat0 (F := Ideal) V c).after 3 t) = _
  rw [after0_3]
  unfold out0_3
  rw [View.canon_unit_zero hz]
  simp only [View.ld_unit_zero (S := S5000x256) hz, View.ld_unit_zero (S := S256x16) hz, View.ld_unit_zero (S := S5000x1) hz]
  obtain ⟨e0, e1, e2, e3, e4, e5, e6, e7⟩ := idx_facts t
  funext j
  obtain ⟨p, q, rfl⟩ : ∃ (p : Fin 5000) (q : Fin 16), j = ix2 p q := ⟨j 0, j 1, eq_ix2 j⟩
  show k0_pay1 (iblk0 V c 0 t) (iblk0 V c 1 t) (iblk0 V c 2 t) (ix2 p q)
    = Cert.GCN.hs0c (V c main_arg0) (V c main_arg1) (V c main_v15)
        ((((cfg0.win 3).blk t).view.emb (ix2 p q)) 0) ((((cfg0.win 3).blk t).view.emb (ix2 p q)) 1)
  refine point_eq _ _ _ (V c main_arg0) (V c main_arg1) (V c main_v15) _ _ p q (fun k => ?_) (fun k => ?_) ?_
  · -- the first operand's block: row block `t`, all columns
    show V c main_arg0 (((cfg0.win 0).blk t).view.emb (ix2 p k))
      = V c main_arg0 (ix2 ((((cfg0.win 3).blk t).view.emb (ix2 p q)) 0) k)
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * k.val = k.val; omega
  · -- the second operand, held whole
    show V c main_arg1 (((cfg0.win 1).blk t).view.emb (ix2 k q))
      = V c main_arg1 (ix2 k ((((cfg0.win 3).blk t).view.emb (ix2 p q)) 1))
    refine congrArg (V c main_arg1) (funext fun a => Fin.ext ?_)
    match a with
    | ⟨0, _⟩ => show win0_1.index t (0 : Fin 2) * 256 + 1 * k.val = k.val; omega
    | ⟨1, _⟩ => show win0_1.index t (1 : Fin 2) * 16 + 1 * q.val = win0_3.index t (1 : Fin 2) * 16 + 1 * q.val; omega
  · -- the scale column's block: row block `t`
    show V c main_v15 (((cfg0.win 2).blk t).view.emb (ix2 p (0 : Fin 1)))
      = V c main_v15 (ix2 ((((cfg0.win 3).blk t).view.emb (ix2 p q)) 0) (0 : Fin 1))
    refine congrArg (V c main_v15) (funext fun a => Fin.ext ?_)
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega

/-! ## From the blocks to the array -/

/-- An index of the array is in point `t`'s block iff each coordinate is in the block's range on its axis. -/
theorem mem_blk (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v16).slice (win0_3.rect t)).set ↔ _
  rw [View.set_slice_whole, Rect.mem_set_unit]
  exact Iff.rfl

/-- THE COVER: row `r` of the array lies in the block of point `r / 5000`, which holds all sixteen columns. -/
theorem cover (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 16 ≤ (i 1).val ∧ (i 1).val < win0_3.index t (1 : Fin 2) * 16 + 16; omega

/-- THE ARRAY the region leaves: the product of the first two arrays with row `n` scaled by the third's entry `n`. -/
theorem region0 (V : (c : Dev nD) → (b : Ref sig .tc) → Buf (Elt Ideal) ((c : Thread nD τ).loc b)) (c : Dev nD) :
    (dat0 (F := Ideal) V c).arrAt 3 cfg0.N = Cert.GCN.hs0 (V c main_arg0) (V c main_arg1) (V c main_v15) :=
  (dat0 (F := Ideal) V c).arrAt_eq_of_cover 3 (Cert.GCN.hs0 (V c main_arg0) (V c main_arg1) (V c main_v15))
    (fun t _ => flushed_eq V c t) cover

end Cert.KernelIdeal.RV0

end
-- ==== Proof.Region1.lean ====
/-
  The second dense stage of the graph convolution, region by blocks.

  The region cuts the 100000 rows in twenty blocks of 5000. At point `t` its body loads rows `5000 t … 5000 t + 4999` of the
  aggregated matrix `a` and of the scale column `d`, the bias row `b` and the weight matrix `w` whole, and stores
  `relu (a · d + b) · w` with row `p` scaled by `d p`: the product is a sum over the sixteen inner positions, the column `d` is
  broadcast along the columns, the row `b` along the rows, and the change of float format before the product is the identity on
  the extended reals. Here: the product at an index; the stored value at an index; each loaded block as rows of its array; what a
  point writes back as a block of the whole stage; every row lies in the block of the point `row / 5000`; the array after the
  last point.
-/
import proofs.«142645_j55095840473679_2_alg».proof.Proof.Gen.KernelIdeal.Frame
import proofs.«142645_j55095840473679_2_alg».proof.Proof.Spec
import proofs.«142645_j55095840473679_2_alg».proof.Proof.LibLayoutCols
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RV1

open Idealize.ShloMosaic Idealize.ShloMosaic.TcCoe Idealize.SL.Sem Cert.KernelIdeal Cert.KernelIdeal.Gen Idealize.ShloMosaic.ValueIdx
open scoped BigOperators

/-! ## The matrix product at an index -/

/-- On the product's row axis the left operand is read at the output's row. -/
theorem lhs_row (i : S5000x2.Idx) (q : dot_S5000x16_S16x2_S5000x2_1_0_0_1_n_n.contr.Idx) :
    (dot_S5000x16_S16x2_S5000x2_1_0_0_1_n_n.lhsIdx i q 0).val = (i 0).val := by
  unfold DotDims.lhsIdx
  rw [dif_neg (show ¬(0 : Fin S5000x16.rank) ∈ dot_S5000x16_S16x2_S5000x2_1_0_0_1_n_n.lhsBatch by decide), dif_pos (show (0 : Fin S5000x16.rank) ∈ dot_S5000x16_S16x2_S5000x2_1_0_0_1_n_n.lhsNonContracting by decide)]
  rfl

/-- On its contracted axis the left operand is read at the contraction position. -/
theorem lhs_col (i : S5000x2.Idx) (q : dot_S5000x16_S16x2_S5000x2_1_0_0_1_n_n.contr.Idx) :
    (dot_S5000x16_S16x2_S5000x2_1_0_0_1_n_n.lhsIdx i q 1).val = (q ⟨0, by decide⟩).val :=
  dot_S5000x16_S16x2_S5000x2_1_0_0_1_n_n.lhsIdx_val_of_single rfl i q

/-- On its contracted axis the right operand is read at the contraction position. -/
theorem rhs_row (i : S5000x2.Idx) (q : dot_S5000x16_S16x2_S5000x2_1_0_0_1_n_n.contr.Idx) :
    (dot_S5000x16_S16x2_S5000x2_1_0_0_1_n_n.rhsIdx i q 0).val = (q ⟨0, by decide⟩).val :=
  dot_S5000x16_S16x2_S5000x2_1_0_0_1_n_n.rhsIdx_val_of_single rfl i q

/-- On the product's column axis the right operand is read at the output's column. -/
theorem rhs_col (i : S5000x2.Idx) (q : dot_S5000x16_S16x2_S5000x2_1_0_0_1_n_n.contr.Idx) :
    (dot_S5000x16_S16x2_S5000x2_1_0_0_1_n_n.rhsIdx i q 1).val = (i 1).val := by
  unfold DotDims.rhsIdx
  rw [dif_neg (show ¬(1 : Fin S16x2.rank) ∈ dot_S5000x16_S16x2_S5000x2_1_0_0_1_n_n.rhsBatch by decide), dif_pos (show (1 : Fin S16x2.rank) ∈ dot_S5000x16_S16x2_S5000x2_1_0_0_1_n_n.rhsNonContracting by decide)]
  rfl

/-- The product into a zero accumulator, at row `p` and column `c`, is the sum over the sixteen inner positions. -/
theorem matmul_at (l : FVec Ideal S5000x16 .bf16) (r : FVec Ideal S16x2 .bf16) (p : Fin 5000) (c : Fin 2) :
    matmul dot_S5000x16_S16x2_S5000x2_1_0_0_1_n_n none l r (constant (F := Ideal) S5000x2 .f32 0x00000000#32) (ix2 p c)
      = ∑ j : Fin 16, l (ix2 p j) * r (ix2 j c) := by
  simp only [matmul]
  rw [Ideal.matmul_constant_zero_apply, ← Equiv.sum_comp (contrEquiv1 dot_S5000x16_S16x2_S5000x2_1_0_0_1_n_n 16 rfl rfl).symm]
  refine Finset.sum_congr rfl fun k _ => ?_
  have hk := contrEquiv1_symm_val dot_S5000x16_S16x2_S5000x2_1_0_0_1_n_n 16 rfl rfl k
  have el : dot_S5000x16_S16x2_S5000x2_1_0_0_1_n_n.lhsIdx (ix2 p c) ((contrEquiv1 dot_S5000x16_S16x2_S5000x2_1_0_0_1_n_n 16 rfl rfl).symm k) = ix2 p k := funext fun a => Fin.ext (by
    match a with
    | ⟨0, _⟩ => exact lhs_row _ _
    | ⟨1, _⟩ => exact (lhs_col _ _).trans hk)
  have er : dot_S5000x16_S16x2_S5000x2_1_0_0_1_n_n.rhsIdx (ix2 p c) ((contrEquiv1 dot_S5000x16_S16x2_S5000x2_1_0_0_1_n_n 16 rfl rfl).symm k) = ix2 k c := funext fun a => Fin.ext (by
    match a with
    | ⟨0, _⟩ => exact (rhs_row _ _).trans hk
    | ⟨1, _⟩ => exact rhs_col _ _)
  rw [el, er]

/-! ## The body's payload at an index -/

/-- Entry `(p, c)` of what the body stores: the rectified row `p` of `x0 · x1 + x2` times column `c` of `x3`, scaled by `x1'` at row `p`. -/
theorem pay_apply (x0 : Vec Ideal S5000x16 .f32) (x1 : Vec Ideal S5000x1 .f32) (x2 : Vec Ideal S1x16 .f32)
    (x3 : Vec Ideal S16x2 .f32) (x1' : Vec Ideal S5000x1 .f32) (p : Fin 5000) (c : Fin 2) :
    k1_pay1 x0 x1 x2 x3 x1' (ix2 p c)
      = (∑ j : Fin 16, max (x0 (ix2 p j) * x1 (ix2 p (0 : Fin 1)) + x2 (ix2 (0 : Fin 1) j)) 0 * x3 (ix2 j c)) * x1' (ix2 p (0 : Fin 1)) := by
  unfold k1_pay1
  simp only [shapeCast_self]
  rw [mulf_apply, Cert.LibLayoutCols.broadcastTo_a1_ab_apply, matmul_at]
  refine congrArg (· * _) (Finset.sum_congr rfl fun j _ => ?_)
  rw [truncf_apply, truncf_apply, maximumf_apply, addf_apply, mulf_apply, Cert.LibLayoutCols.broadcastTo_a1_ab_apply,
    broadcastTo_1b_ab_apply, broadcast_apply]
  rw [show (FloatOps.ofBits (F := Ideal) .f32 0x00000000#32 : EReal) = 0 from Ideal.ofBits_zero_f32]

/-- The body's payload on a block of rows `5000 n … 5000 n + 4999` of the arrays is the second dense stage on those rows: if the
    loaded blocks are those rows of the aggregated matrix and of the scale column, and the bias row and the weight matrix whole,
    the payload's entry `y` is the stage's entry `i`, where `i` is `y` moved down by `5000 n` rows. -/
theorem pay_rows (A : (⟨2, ![100000, 16]⟩ : Shape).Idx → EReal) (D : (⟨2, ![100000, 1]⟩ : Shape).Idx → EReal)
    (B : (⟨2, ![1, 16]⟩ : Shape).Idx → EReal) (W : (⟨2, ![16, 2]⟩ : Shape).Idx → EReal)
    (x0 : Vec Ideal S5000x16 .f32) (x1 : Vec Ideal S5000x1 .f32) (x2 : Vec Ideal S1x16 .f32) (x3 : Vec Ideal S16x2 .f32) (n : Nat)
    (h0 : ∀ (p : Fin 5000) (j : Fin 16) (k : S100000x16.Idx), (k 0).val = n * 5000 + p.val → (k 1).val = j.val → x0 (ix2 p j) = A k)
    (h1 : ∀ (p : Fin 5000) (k : S100000x1.Idx), (k 0).val = n * 5000 + p.val → x1 (ix2 p (0 : Fin 1)) = D k)
    (h2 : ∀ j : Fin 16, x2 (ix2 (0 : Fin 1) j) = B (ix2 (0 : Fin 1) j))
    (h3 : ∀ (j : Fin 16) (q : Fin 2), x3 (ix2 j q) = W (ix2 j q))
    (y : S5000x2.Idx) (i : S100000x2.Idx) (hi0 : (i 0).val = n * 5000 + (y 0).val) (hi1 : (i 1).val = (y 1).val) :
    k1_pay1 x0 x1 x2 x3 x1 y = Cert.GCN.hs2 A D B W i := by
  obtain ⟨p, q, rfl⟩ : ∃ (p : Fin 5000) (q : Fin 2), y = ix2 p q := ⟨y 0, y 1, eq_ix2 y⟩
  obtain ⟨r, s, rfl⟩ : ∃ (r : Fin 100000) (s : Fin 2), i = ix2 r s := ⟨i 0, i 1, eq_ix2 i⟩
  have hr : r.val = n * 5000 + p.val := hi0
  obtain rfl : s = q := Fin.ext hi1
  rw [pay_apply]
  show _ = Cert.GCN.hs2c A D B W r s
  unfold Cert.GCN.hs2c
  rw [h1 p (ix2 r (0 : Fin 1)) hr]
  refine congrArg (· * _) (Finset.sum_congr rfl fun j _ => ?_)
  rw [h0 p j (ix2 r j) hr rfl, h2 j, h3 j s]

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: at point `t` the row-block windows sit at block `(t, 0)`, the operands held whole at `(0, 0)`. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of the aggregated matrix at point `t` holds rows `5000 t … 5000 t + 4999`. -/
theorem agg_block_rows (c : Dev nD) (t : Fin cfg1.N) (p : Fin 5000) (j : Fin 16) (k : S100000x16.Idx)
    (hk0 : (k 0).val = t.val * 5000 + p.val) (hk1 : (k 1).val = j.val) :
    (iblk1 V c 0 t : Vec Ideal S5000x16 .f32) (ix2 p j) = (V c main_v26 : S100000x16.Idx → EReal) k := by
  obtain ⟨e0, e1, -⟩ := block_indices t
  unfold iblk1
  rw [View.read_apply]
  show (V c main_v26 : S100000x16.Idx → EReal) _ = _
  congr 1
  funext a
  apply Fin.ext
  match a with
  | ⟨0, _⟩ => show win1_0.index t (0 : Fin 2) * 5000 + 1 * p.val = (k 0).val; omega
  | ⟨1, _⟩ => show win1_0.index t (1 : Fin 2) * 16 + 1 * j.val = (k 1).val; omega

/-- The block of the scale column at point `t` holds rows `5000 t … 5000 t + 4999`. -/
theorem scale_block_rows (c : Dev nD) (t : Fin cfg1.N) (p : Fin 5000) (k : S100000x1.Idx)
    (hk0 : (k 0).val = t.val * 5000 + p.val) :
    (iblk1 V c 1 t : Vec Ideal S5000x1 .f32) (ix2 p (0 : Fin 1)) = (V c main_v15 : S100000x1.Idx → EReal) k := by
  obtain ⟨-, -, e0, e1, -⟩ := block_indices t
  have hk1 : (k 1).val < 1 := (k 1).isLt
  unfold iblk1
  rw [View.read_apply]
  show (V c main_v15 : S100000x1.Idx → EReal) _ = _
  congr 1
  funext a
  apply Fin.ext
  match a with
  | ⟨0, _⟩ => show win1_1.index t (0 : Fin 2) * 5000 + 1 * p.val = (k 0).val; omega
  | ⟨1, _⟩ => show win1_1.index t (1 : Fin 2) * 1 + 1 * 0 = (k 1).val; omega

/-- The bias row is held whole at every point. -/
theorem bias_block_whole (c : Dev nD) (t : Fin cfg1.N) (j : Fin 16) :
    (iblk1 V c 2 t : Vec Ideal S1x16 .f32) (ix2 (0 : Fin 1) j) = (V c main_v27 : S1x16.Idx → EReal) (ix2 (0 : Fin 1) j) := by
  obtain ⟨-, -, -, -, e0, e1, -⟩ := block_indices t
  unfold iblk1
  rw [View.read_apply]
  show (V c main_v27 : S1x16.Idx → EReal) _ = _
  congr 1
  funext a
  apply Fin.ext
  match a with
  | ⟨0, _⟩ => show win1_2.index t (0 : Fin 2) * 1 + 1 * 0 = 0; omega
  | ⟨1, _⟩ => show win1_2.index t (1 : Fin 2) * 16 + 1 * j.val = j.val; omega

/-- The second weight matrix is held whole at every point. -/
theorem weight_block_whole (c : Dev nD) (t : Fin cfg1.N) (j : Fin 16) (q : Fin 2) :
    (iblk1 V c 3 t : Vec Ideal S16x2 .f32) (ix2 j q) = (V c main_arg3 : S16x2.Idx → EReal) (ix2 j q) := by
  obtain ⟨-, -, -, -, -, -, e0, e1, -⟩ := block_indices t
  unfold iblk1
  rw [View.read_apply]
  show (V c main_arg3 : S16x2.Idx → EReal) _ = _
  congr 1
  funext a
  apply Fin.ext
  match a with
  | ⟨0, _⟩ => show win1_3.index t (0 : Fin 2) * 16 + 1 * j.val = j.val; omega
  | ⟨1, _⟩ => show win1_3.index t (1 : Fin 2) * 2 + 1 * q.val = q.val; omega

/-- What point `t` writes back is block `t` of the second dense stage of the arrays as the region finds them. -/
theorem written_back (c : Dev nD) (t : Fin cfg1.N) :
    (dat1 (F := Ideal) V c).flushed 4 t
      = ((cfg1.win 4).blk t).view.read (Elt Ideal) (Cert.GCN.hs2 (V c main_v26) (V c main_v15) (V c main_v27) (V c main_arg3)) := by
  show (cfg1.win 4).cut (grid1.coords t) ((dat1 V c).after 4 t) = _
  rw [after1_4]
  unfold out1_4
  rw [View.canon_unit_zero zero_offsets]
  simp only [View.ld_unit_zero (S := S5000x16) zero_offsets, View.ld_unit_zero (S := S5000x1) zero_offsets, View.ld_unit_zero (S := S1x16) zero_offsets,
    View.ld_unit_zero (S := S16x2) zero_offsets]
  obtain ⟨-, -, -, -, -, -, -, -, e0, e1⟩ := block_indices t
  funext j
  rw [View.read_apply]
  refine pay_rows (V c main_v26) (V c main_v15) (V c main_v27) (V c main_arg3) (iblk1 V c 0 t) (iblk1 V c 1 t) (iblk1 V c 2 t)
    (iblk1 V c 3 t) t.val (agg_block_rows V c t) (scale_block_rows V c t) (bias_block_whole V c t) (weight_block_whole V c t) j _ ?_ ?_
  · show win1_4.index t (0 : Fin 2) * 5000 + 1 * (j 0).val = t.val * 5000 + (j 0).val
    omega
  · show win1_4.index t (1 : Fin 2) * 2 + 1 * (j 1).val = (j 1).val
    omega

/-- An index of the array is in point `t`'s block iff each coordinate is in the block's range on its axis. -/
theorem mem_block_iff (t : Fin cfg1.N) (i : S100000x2.Idx) :
    i ∈ ((cfg1.win 4).blk t).view.set
      ↔ ∀ a : Fin 2, win1_4.index t a * S5000x2.size a ≤ (i a).val ∧ (i a).val < win1_4.index t a * S5000x2.size a + S5000x2.size a := by
  show i ∈ ((View.whole main_v28).slice (win1_4.rect t)).set ↔ _
  rw [View.set_slice_whole, Rect.mem_set_unit]
  exact Iff.rfl

/-- Every index of the array is in some point's block: row `r` lies in the block of point `r / 5000`, on all columns. -/
theorem rows_covered (i : S100000x2.Idx) :
    ∃ t : Fin cfg1.N, (cfg1.win 4).flush t = true ∧ i ∈ ((cfg1.win 4).blk t).view.set := by
  have hi0 : (i 0).val < 100000 := (i 0).isLt
  have hi1 : (i 1).val < 2 := (i 1).isLt
  have hN : grid1.N = 20 := N_1
  have ht : (i 0).val / 5000 < cfg1.N := by
    show (i 0).val / 5000 < grid1.N
    rw [hN]; omega
  obtain ⟨-, -, -, -, -, -, -, -, e0, e1⟩ := block_indices ⟨(i 0).val / 5000, ht⟩
  have e0' : win1_4.index ⟨(i 0).val / 5000, ht⟩ (0 : Fin 2) = (i 0).val / 5000 := e0
  refine ⟨⟨(i 0).val / 5000, ht⟩, flush1_4 _, ?_⟩
  rw [mem_block_iff]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e0']; omega
  | ⟨1, _⟩ =>
    show win1_4.index ⟨(i 0).val / 5000, ht⟩ (1 : Fin 2) * 2 ≤ (i 1).val
      ∧ (i 1).val < win1_4.index ⟨(i 0).val / 5000, ht⟩ (1 : Fin 2) * 2 + 2
    rw [e1]; omega

/-- The region's output array after the last point is the second dense stage of the arrays as the region finds them. -/
theorem region1 (c : Dev nD) :
    (dat1 (F := Ideal) V c).arrAt 4 cfg1.N = Cert.GCN.hs2 (V c main_v26) (V c main_v15) (V c main_v27) (V c main_arg3) :=
  (dat1 (F := Ideal) V c).arrAt_eq_of_cover 4 _ (fun t _ => written_back V c t) rows_covered

end Cert.KernelIdeal.RV1

end
-- ==== Proof.Region2.lean ====
/-
  The last region of the two-layer graph convolution: the row-wise log-softmax of `a · d + b` over two classes.

  The body at a grid point holds a block of 5000 rows of the aggregates `a` (two columns), the same rows of the column of
  scales `d`, and the bias row `b`. It forms the logits `z = a · d + b` (the column broadcast along the row, the bias row
  broadcast down the rows), takes each row's maximum `M` over the two columns starting from negative infinity, keeps it
  as a column, broadcasts it back and subtracts; exponentiates; sums each row's two exponentials, keeps the sum as a
  column, takes its logarithm, broadcasts it back and subtracts. So the stored block is, at `(p, c)`,
  `(z p c − M p) − log (∑ c', exp (z p c' − M p))`.

  * `lift_row`, `rowmax_apply`, `rowsum_apply`: a reduction over the column axis read at a row — the fold of `max` from the
    accumulator's value, and the two-term sum.
  * `lsm_apply`: the chain maximum – subtract – exponential – sum – logarithm – subtract of any block, at an index.
  * `pay_apply`: the body's stored value at `(p, c)` in terms of the three loaded blocks.
  * `idx_facts`, `blk0_apply`, `blk1_apply`, `blk2_apply`: point `t`'s blocks are rows `5000 t … 5000 t + 4999` of the two
    row-blocked arrays, and the whole bias row.
  * `flushed_eq`: what point `t` writes back is block `t` of the specification `Cert.GCN.lsm` of the three arrays.
  * `mem_blk`, `cover`: row `r` is in the block of point `r / 5000`; the twenty blocks cover the array.
  * `region2`: the result array after the region is `Cert.GCN.lsm` of the arrays the region found.
-/
import proofs.«142645_j55095840473679_2_alg».proof.Proof.Gen.KernelIdeal.Frame
import proofs.«142645_j55095840473679_2_alg».proof.Proof.Spec
import proofs.«142645_j55095840473679_2_alg».proof.Proof.LibLayoutCols
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RV2

open Idealize.ShloMosaic Idealize.ShloMosaic.TcCoe Idealize.SL.Sem Cert.KernelIdeal Cert.KernelIdeal.Gen Idealize.ShloMosaic.ValueIdx
open scoped BigOperators

/-! ## The body's arithmetic at an index -/

/-- The source index over row `p` with column `k` inserted is `(p, k)`. -/
theorem lift_row (h : (⟨2, ![5000, 2]⟩ : Shape).Reduces [1] ⟨1, ![5000]⟩) (p : Fin 5000) (k : Fin 2) :
    h.lift (ix1 p) k = ix2 p k := by
  funext a
  apply Fin.ext
  match a with
  | ⟨0, _⟩ => rfl
  | ⟨1, _⟩ => rfl

/-- The exponential and the logarithm of a block, read at an index. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The maximum over the two columns, from the accumulator's value, at row `p`. -/
theorem rowmax_apply (v : FVec Ideal S5000x2 .f32) (h : S5000x2.Reduces [1] S5000) (hφ : FKind.Formats .f32)
    (hacc : (0xFF800000#32 : BitVec 32) = FKind.maximumf.neutral .f32 hφ) (p : Fin 5000) :
    multiReduction .maximumf [1] S5000 v 0xFF800000#32 h hφ hacc (ix1 p)
      = (Finset.univ : Finset (Fin 2)).fold max (FloatOps.ofBits (F := Ideal) .f32 0xFF800000#32) (fun k => v (ix2 p k)) := by
  refine (Ideal.multiReduction_maximumf_single v 0xFF800000#32 h hφ hacc (ix1 p)).trans ?_
  show Finset.fold max _ (fun k : Fin 2 => v (h.lift (ix1 p) k)) Finset.univ = _
  simp only [lift_row]

/-- The sum over the two columns at row `p`. -/
theorem rowsum_apply (v : FVec Ideal S5000x2 .f32) (h : S5000x2.Reduces [1] S5000) (hφ : FKind.Formats .f32)
    (hacc : (0x00000000#32 : BitVec 32) = FKind.add.neutral .f32 hφ) (p : Fin 5000) :
    multiReduction .add [1] S5000 v 0x00000000#32 h hφ hacc (ix1 p) = ∑ k : Fin 2, v (ix2 p k) := by
  refine (Ideal.multiReduction_add_single v 0x00000000#32 h hφ hacc (ix1 p)).trans ?_
  show (∑ k : Fin 2, v (h.lift (ix1 p) k)) = _
  simp only [lift_row]

/-- The row-wise log-softmax of a block `v` as the body computes it — the row maximum kept as a column, broadcast back and
    subtracted; the exponentials summed along the row, the sum kept as a column, its logarithm broadcast back and
    subtracted — read at `(p, c)`. -/
theorem lsm_apply (v : FVec Ideal S5000x2 .f32) (h : S5000x2.Reduces [1] S5000) (hφ : FKind.Formats .f32)
    (hmax : (0xFF800000#32 : BitVec 32) = FKind.maximumf.neutral .f32 hφ)
    (hadd : (0x00000000#32 : BitVec 32) = FKind.add.neutral .f32 hφ)
    (hc : S5000.ShapeCasts S5000x1) (hb : S5000x1.Broadcasts S5000x2) (p : Fin 5000) (c : Fin 2) :
    subf (subf v (broadcastTo S5000x2 (shapeCast S5000x1 (multiReduction .maximumf [1] S5000 v 0xFF800000#32 h hφ hmax) hc) hb))
        (broadcastTo S5000x2 (log (shapeCast S5000x1 (multiReduction .add [1] S5000
          (exp (subf v (broadcastTo S5000x2 (shapeCast S5000x1 (multiReduction .maximumf [1] S5000 v 0xFF800000#32 h hφ hmax) hc) hb)))
          0x00000000#32 h hφ hadd) hc)) hb) (ix2 p c)
      = (v (ix2 p c) - (Finset.univ : Finset (Fin 2)).fold max (FloatOps.ofBits (F := Ideal) .f32 0xFF800000#32) (fun k => v (ix2 p k)))
        - Ideal.log (∑ k : Fin 2, Ideal.exp (v (ix2 p k)
            - (Finset.univ : Finset (Fin 2)).fold max (FloatOps.ofBits (F := Ideal) .f32 0xFF800000#32) (fun k => v (ix2 p k)))) := by
  simp only [subf_apply, log_apply, LibLayoutCols.broadcastTo_a1_ab_apply, LibLayoutCols.shapeCast_a_a1_apply]
  rw [rowsum_apply _ h hφ hadd p]
  simp only [subf_apply, exp_apply, LibLayoutCols.broadcastTo_a1_ab_apply, LibLayoutCols.shapeCast_a_a1_apply,
    rowmax_apply v h hφ hmax p]

/-- The logit at `(p, c)` of a block of aggregates `x0`, a column of scales `x1` and a bias row `x2`. -/
def zc (x0 : Vec Ideal S5000x2 .f32) (x1 : Vec Ideal S5000x1 .f32) (x2 : Vec Ideal S1x2 .f32) (p : Fin 5000) (c : Fin 2) : EReal :=
  x0 (ix2 p c) * x1 (ix2 p (0 : Fin 1)) + x2 (ix2 (0 : Fin 1) c)

/-- The maximum of row `p`'s two logits, folded from negative infinity. -/
def mc (x0 : Vec Ideal S5000x2 .f32) (x1 : Vec Ideal S5000x1 .f32) (x2 : Vec Ideal S1x2 .f32) (p : Fin 5000) : EReal :=
  (Finset.univ : Finset (Fin 2)).fold max (FloatOps.ofBits (F := Ideal) .f32 0xFF800000#32) (zc x0 x1 x2 p)

/-- THE PAYLOAD AT `(p, c)`: the logit less the row maximum, less the logarithm of the row's sum of exponentials. -/
theorem pay_apply (x0 : Vec Ideal S5000x2 .f32) (x1 : Vec Ideal S5000x1 .f32) (x2 : Vec Ideal S1x2 .f32) (p : Fin 5000) (c : Fin 2) :
    k2_pay1 x0 x1 x2 (ix2 p c)
      = (zc x0 x1 x2 p c - mc x0 x1 x2 p) - Ideal.log (∑ k : Fin 2, Ideal.exp (zc x0 x1 x2 p k - mc x0 x1 x2 p)) := by
  unfold k2_pay1
  dsimp only
  refine (lsm_apply _ _ _ _ _ _ _ p c).trans ?_
  simp only [addf_apply, mulf_apply, shapeCast_self, LibLayoutCols.broadcastTo_a1_ab_apply, broadcastTo_1b_ab_apply]
  rfl

/-! ## The blocks as rows of the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the twenty grid points: a row-block window's block index at point `t` is
    `(t, 0)`; the bias row, held whole, stays at `(0, 0)`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The aggregates' block at point `t` holds rows `5000 t … 5000 t + 4999` of the array. -/
theorem blk0_apply (c : Dev nD) (t : Fin cfg2.N) (p : Fin 5000) (k : Fin 2) (n : Fin 100000) (hn : n.val = t.val * 5000 + p.val) :
    (iblk2 V c 0 t : Vec Ideal S5000x2 .f32) (ix2 p k) = (V c main_v38 : S100000x2.Idx → EReal) (ix2 n k) := by
  obtain ⟨e0, e1, -⟩ := idx_facts t
  unfold iblk2
  rw [View.read_apply]
  show (V c main_v38 : S100000x2.Idx → EReal) _ = _
  congr 1
  funext a
  apply Fin.ext
  match a with
  | ⟨0, _⟩ => show win2_0.index t (0 : Fin 2) * 5000 + 1 * p.val = n.val; rw [e0, hn]; omega
  | ⟨1, _⟩ => show win2_0.index t (1 : Fin 2) * 2 + 1 * k.val = k.val; rw [e1]; omega

/-- The scales' block at point `t` holds rows `5000 t … 5000 t + 4999` of the column. -/
theorem blk1_apply (c : Dev nD) (t : Fin cfg2.N) (p : Fin 5000) (n : Fin 100000) (hn : n.val = t.val * 5000 + p.val) :
    (iblk2 V c 1 t : Vec Ideal S5000x1 .f32) (ix2 p (0 : Fin 1)) = (V c main_v15 : S100000x1.Idx → EReal) (ix2 n (0 : Fin 1)) := by
  obtain ⟨-, -, e0, e1, -⟩ := idx_facts t
  unfold iblk2
  rw [View.read_apply]
  show (V c main_v15 : S100000x1.Idx → EReal) _ = _
  congr 1
  funext a
  apply Fin.ext
  match a with
  | ⟨0, _⟩ => show win2_1.index t (0 : Fin 2) * 5000 + 1 * p.val = n.val; rw [e0, hn]; omega
  | ⟨1, _⟩ => show win2_1.index t (1 : Fin 2) * 1 + 1 * 0 = 0; rw [e1]

/-- The bias row's block at every point is the row itself. -/
theorem blk2_apply (c : Dev nD) (t : Fin cfg2.N) (k : Fin 2) :
    (iblk2 V c 2 t : Vec Ideal S1x2 .f32) (ix2 (0 : Fin 1) k) = (V c main_v39 : S1x2.Idx → EReal) (ix2 (0 : Fin 1) k) := by
  obtain ⟨-, -, -, -, e0, e1, -⟩ := idx_facts t
  unfold iblk2
  rw [View.read_apply]
  show (V c main_v39 : S1x2.Idx → EReal) _ = _
  congr 1
  funext a
  apply Fin.ext
  match a with
  | ⟨0, _⟩ => show win2_2.index t (0 : Fin 2) * 1 + 1 * 0 = 0; rw [e0]
  | ⟨1, _⟩ => show win2_2.index t (1 : Fin 2) * 2 + 1 * k.val = k.val; rw [e1]; omega

/-! ## What a point writes back, the cover, the array -/

/-- WHAT POINT `t` WRITES BACK is block `t` of the row-wise log-softmax of the arrays as the region finds them. -/
theorem flushed_eq (c : Dev nD) (t : Fin cfg2.N) :
    (dat2 (F := Ideal) V c).flushed 3 t
      = ((cfg2.win 3).blk t).view.read (Elt Ideal) (Cert.GCN.lsm (V c main_v38) (V c main_v15) (V c main_v39)) := by
  show (cfg2.win 3).cut (grid2.coords t) ((dat2 V c).after 3 t) = _
  rw [after2_3]
  unfold out2_3
  rw [View.canon_unit_zero hz]
  simp only [View.ld_unit_zero (S := S5000x2) hz, View.ld_unit_zero (S := S5000x1) hz, View.ld_unit_zero (S := S1x2) hz]
  obtain ⟨-, -, -, -, -, -, e0, e1⟩ := idx_facts t
  have ht : t.val < 20 := lt_of_lt_of_eq t.isLt N_2
  funext j
  obtain ⟨p, hp⟩ : ∃ p : Fin 5000, p.val = (j 0).val := ⟨⟨(j 0).val, (j 0).isLt⟩, rfl⟩
  obtain ⟨q, hq⟩ : ∃ q : Fin 2, q.val = (j 1).val := ⟨⟨(j 1).val, (j 1).isLt⟩, rfl⟩
  obtain ⟨n, hn⟩ : ∃ n : Fin 100000, n.val = t.val * 5000 + p.val :=
    ⟨⟨t.val * 5000 + p.val, by have := p.isLt; omega⟩, rfl⟩
  -- the point's index inside the staging buffer, and in the array
  have hx : (cfg2.win 3).xinj (grid2.coords t) j = ix2 p q := by
    funext a; apply Fin.ext
    match a with
    | ⟨0, _⟩ => exact hp.symm
    | ⟨1, _⟩ => exact hq.symm
  have hemb : ((cfg2.win 3).blk t).view.emb j = ix2 n q := by
    funext a; apply Fin.ext
    match a with
    | ⟨0, _⟩ => show win2_3.index t (0 : Fin 2) * 5000 + 1 * (j 0).val = n.val; rw [e0, hn, hp]; omega
    | ⟨1, _⟩ => show win2_3.index t (1 : Fin 2) * 2 + 1 * (j 1).val = q.val; rw [e1, hq]; omega
  rw [View.read_apply]
  show k2_pay1 (iblk2 V c 0 t) (iblk2 V c 1 t) (iblk2 V c 2 t) ((cfg2.win 3).xinj (grid2.coords t) j)
    = Cert.GCN.lsm (V c main_v38) (V c main_v15) (V c main_v39) (((cfg2.win 3).blk t).view.emb j)
  rw [hx, hemb]
  refine (pay_apply (iblk2 V c 0 t) (iblk2 V c 1 t) (iblk2 V c 2 t) p q).trans ?_
  show _ = Cert.GCN.lsmc (V c main_v38) (V c main_v15) (V c main_v39) n q
  have hlogit : zc (iblk2 V c 0 t) (iblk2 V c 1 t) (iblk2 V c 2 t) p
      = Cert.GCN.logit (V c main_v38) (V c main_v15) (V c main_v39) n := by
    funext k
    unfold zc Cert.GCN.logit
    rw [blk0_apply V c t p k n hn, blk1_apply V c t p n hn, blk2_apply V c t k]
  unfold mc Cert.GCN.lsmc Cert.GCN.rowMax
  rw [hlogit]

/-- An index of the array is in point `t`'s block iff each coordinate is in the block's range on its axis. -/
theorem mem_blk (t : Fin cfg2.N) (i : S100000x2.Idx) :
    i ∈ ((cfg2.win 3).blk t).view.set ↔ ∀ a : Fin 2, win2_3.index t a * S5000x2.size a ≤ (i a).val
      ∧ (i a).val < win2_3.index t a * S5000x2.size a + S5000x2.size a := by
  show i ∈ ((View.whole main_v40).slice (win2_3.rect t)).set ↔ _
  rw [View.set_slice_whole, Rect.mem_set_unit]
  exact Iff.rfl

/-- THE COVER: row `r` lies in the block of point `r / 5000`, whatever the column. -/
theorem cover (i : S100000x2.Idx) :
    ∃ t : Fin cfg2.N, (cfg2.win 3).flush t = true ∧ i ∈ ((cfg2.win 3).blk t).view.set := by
  have hi0 : (i 0).val < 100000 := (i 0).isLt
  have hi1 : (i 1).val < 2 := (i 1).isLt
  have hN : cfg2.N = 20 := N_2
  refine ⟨⟨(i 0).val / 5000, by rw [hN]; omega⟩, flush2_3 _, ?_⟩
  obtain ⟨-, -, -, -, -, -, e0, e1⟩ := idx_facts ⟨(i 0).val / 5000, by rw [hN]; omega⟩
  rw [mem_blk]
  intro a
  match a with
  | ⟨0, _⟩ =>
    show win2_3.index ⟨(i 0).val / 5000, _⟩ (0 : Fin 2) * 5000 ≤ (i 0).val
      ∧ (i 0).val < win2_3.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win2_3.index ⟨(i 0).val / 5000, _⟩ (1 : Fin 2) * 2 ≤ (i 1).val
      ∧ (i 1).val < win2_3.index ⟨(i 0).val / 5000, _⟩ (1 : Fin 2) * 2 + 2
    rw [e1]
    omega

/-- THE ARRAY after the region: the row-wise log-softmax of the scaled aggregates plus the bias. -/
theorem region2 (c : Dev nD) :
    (dat2 (F := Ideal) V c).arrAt 3 cfg2.N = Cert.GCN.lsm (V c main_v38) (V c main_v15) (V c main_v39) :=
  (dat2 (F := Ideal) V c).arrAt_eq_of_cover 3 (Cert.GCN.lsm (V c main_v38) (V c main_v15) (V c main_v39))
    (fun t _ => flushed_eq V c t) cover

end Cert.KernelIdeal.RV2
end
-- ==== Proof.KOut.lean ====
/-
  The idealized kernel program's buffers, followed from the launch to the return: through each stretch of host operations
  (a buffer a stretch does not write keeps its contents), through each region (an input window's array and every buffer
  that is no window's array are kept; the output window's array ends as the region's whole-array function of the entry
  contents), down to the result buffer, which ends as `kernelOut` of the argument arrays.
-/
import proofs.«142645_j55095840473679_2_alg».proof.Proof.KHost
import proofs.«142645_j55095840473679_2_alg».proof.Proof.Region0
import proofs.«142645_j55095840473679_2_alg».proof.Proof.Region1
import proofs.«142645_j55095840473679_2_alg».proof.Proof.Region2

noncomputable section

namespace Cert.KernelIdeal.KO

open Idealize.ShloMosaic Idealize.ShloMosaic.TcCoe Idealize.SL.Sem Idealize.ShloMosaic.StableHlo
open Cert.KernelIdeal Cert.KernelIdeal.Gen Cert.KernelIdeal.KH

variable (m : (ℓ : Loc nD τ sig) → Buf (Elt Ideal) ℓ) (ρ : Dev nD → PrngReg) (c : Dev nD)

/-! ## At the first region's entry -/

theorem W3_v3 : W3 m ρ c (Proc.devRef .tc main_v3) = srcOf (m ((c : Thread nD τ).loc main_arg5)) :=
  (ops02_v3 _).trans ((ops01_v3 _).trans (ops0_v3 _))
theorem W3_v6 : W3 m ρ c (Proc.devRef .tc main_v6) = tgtOf (m ((c : Thread nD τ).loc main_arg5)) :=
  (ops02_v6 _).trans ((ops01_v6 _).trans (ops0_v6 _))
theorem W3_arg0 : W3 m ρ c (Proc.devRef .tc main_arg0) = m ((c : Thread nD τ).loc main_arg0) :=
  (ops02_arg0 _).trans ((ops01_arg0 _).trans (ops0_arg0 _))
theorem W3_arg1 : W3 m ρ c (Proc.devRef .tc main_arg1) = m ((c : Thread nD τ).loc main_arg1) :=
  (ops02_arg1 _).trans ((ops01_arg1 _).trans (ops0_arg1 _))
theorem W3_arg2 : W3 m ρ c (Proc.devRef .tc main_arg2) = m ((c : Thread nD τ).loc main_arg2) :=
  (ops02_arg2 _).trans ((ops01_arg2 _).trans (ops0_arg2 _))
theorem W3_arg3 : W3 m ρ c (Proc.devRef .tc main_arg3) = m ((c : Thread nD τ).loc main_arg3) :=
  (ops02_arg3 _).trans ((ops01_arg3 _).trans (ops0_arg3 _))
theorem W3_arg4 : W3 m ρ c (Proc.devRef .tc main_arg4) = m ((c : Thread nD τ).loc main_arg4) :=
  (ops02_arg4 _).trans ((ops01_arg4 _).trans (ops0_arg4 _))

/-- The selection's result is the scale-factor vector. -/
theorem W2_v14 : W2 m ρ c (Proc.devRef .tc main_v14) = disOf (tgtOf (m ((c : Thread nD τ).loc main_arg5))) := by
  refine (ops01_v14 _).trans ?_
  have e12 : W1 m ρ c (Proc.devRef .tc main_v12) = _ := ops0_v12 _
  have e13 : W1 m ρ c (Proc.devRef .tc main_v13) = _ := ops0_v13 _
  have e2 : W1 m ρ c (Proc.devRef .tc main_cst_2) = _ := ops0_cst_2 _
  rw [e12, e13, e2]
  rfl

theorem W3_v15 : W3 m ρ c (Proc.devRef .tc main_v15) = disCol (tgtOf (m ((c : Thread nD τ).loc main_arg5))) := by
  refine (ops02_v15 _).trans ?_
  rw [W2_v14]
  rfl

/-! ## Through the first region -/

theorem W4_v16 : W4 m ρ c (Proc.devRef .tc main_v16)
    = Cert.GCN.hs0 (m ((c : Thread nD τ).loc main_arg0)) (m ((c : Thread nD τ).loc main_arg1))
        (disCol (tgtOf (m ((c : Thread nD τ).loc main_arg5)))) := by
  have h := (W4_arr m ρ c 3).trans (Cert.KernelIdeal.RV0.region0 (V3 m ρ) c)
  have e0 : V3 m ρ c main_arg0 = m ((c : Thread nD τ).loc main_arg0) := W3_arg0 m ρ c
  have e1 : V3 m ρ c main_arg1 = m ((c : Thread nD τ).loc main_arg1) := W3_arg1 m ρ c
  have e2 : V3 m ρ c main_v15 = disCol (tgtOf (m ((c : Thread nD τ).loc main_arg5))) := W3_v15 m ρ c
  rw [e0, e1, e2] at h
  exact h
theorem W4_v3 : W4 m ρ c (Proc.devRef .tc main_v3) = srcOf (m ((c : Thread nD τ).loc main_arg5)) :=
  (W4_of_ne m ρ c main_v3 (by decide)).trans (W3_v3 m ρ c)
theorem W4_v6 : W4 m ρ c (Proc.devRef .tc main_v6) = tgtOf (m ((c : Thread nD τ).loc main_arg5)) :=
  (W4_of_ne m ρ c main_v6 (by decide)).trans (W3_v6 m ρ c)
theorem W4_arg2 : W4 m ρ c (Proc.devRef .tc main_arg2) = m ((c : Thread nD τ).loc main_arg2) :=
  (W4_of_ne m ρ c main_arg2 (by decide)).trans (W3_arg2 m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_v15 : W4 m ρ c (Proc.devRef .tc main_v15) = disCol (tgtOf (m ((c : Thread nD τ).loc main_arg5))) :=
  (W4_arr m ρ c 2).trans ((((dat0 (V3 m ρ) c).arrAt_in 2 rfl _).trans (A_eq0 (V3 m ρ) c 2)).trans (W3_v15 m ρ c))

/-! ## At the second region's entry -/

theorem W5_v26 : W5 m ρ c (Proc.devRef .tc main_v26)
    = aggr16 (srcOf (m ((c : Thread nD τ).loc main_arg5))) (tgtOf (m ((c : Thread nD τ).loc main_arg5)))
        (Cert.GCN.hs0 (m ((c : Thread nD τ).loc main_arg0)) (m ((c : Thread nD τ).loc main_arg1))
          (disCol (tgtOf (m ((c : Thread nD τ).loc main_arg5))))) := by
  refine (ops1_v26 _).trans ?_
  rw [W4_v3, W4_v6, W4_v16]
theorem W5_v27 : W5 m ρ c (Proc.devRef .tc main_v27) = shapeCast S1x16 (m ((c : Thread nD τ).loc main_arg2)) shapeCasts_S16_S1x16 := by
  refine (ops1_v27 _).trans ?_
  rw [W4_arg2]
theorem W5_v3 : W5 m ρ c (Proc.devRef .tc main_v3) = srcOf (m ((c : Thread nD τ).loc main_arg5)) := (ops1_v3 _).trans (W4_v3 m ρ c)
theorem W5_v6 : W5 m ρ c (Proc.devRef .tc main_v6) = tgtOf (m ((c : Thread nD τ).loc main_arg5)) := (ops1_v6 _).trans (W4_v6 m ρ c)
theorem W5_v15 : W5 m ρ c (Proc.devRef .tc main_v15) = disCol (tgtOf (m ((c : Thread nD τ).loc main_arg5))) := (ops1_v15 _).trans (W4_v15 m ρ c)
theorem W5_arg3 : W5 m ρ c (Proc.devRef .tc main_arg3) = m ((c : Thread nD τ).loc main_arg3) := (ops1_arg3 _).trans (W4_arg3 m ρ c)
theorem W5_arg4 : W5 m ρ c (Proc.devRef .tc main_arg4) = m ((c : Thread nD τ).loc main_arg4) := (ops1_arg4 _).trans (W4_arg4 m ρ c)

/-! ## Through the second region -/

theorem W6_v28 : W6 m ρ c (Proc.devRef .tc main_v28)
    = Cert.GCN.hs2 (aggr16 (srcOf (m ((c : Thread nD τ).loc main_arg5))) (tgtOf (m ((c : Thread nD τ).loc main_arg5)))
        (Cert.GCN.hs0 (m ((c : Thread nD τ).loc main_arg0)) (m ((c : Thread nD τ).loc main_arg1))
          (disCol (tgtOf (m ((c : Thread nD τ).loc main_arg5))))))
        (disCol (tgtOf (m ((c : Thread nD τ).loc main_arg5))))
        (shapeCast S1x16 (m ((c : Thread nD τ).loc main_arg2)) shapeCasts_S16_S1x16) (m ((c : Thread nD τ).loc main_arg3)) := by
  have h := (W6_arr m ρ c 4).trans (Cert.KernelIdeal.RV1.region1 (V5 m ρ) c)
  have e0 : V5 m ρ c main_v26 = _ := W5_v26 m ρ c
  have e1 : V5 m ρ c main_v15 = _ := W5_v15 m ρ c
  have e2 : V5 m ρ c main_v27 = _ := W5_v27 m ρ c
  have e3 : V5 m ρ c main_arg3 = _ := W5_arg3 m ρ c
  rw [e0, e1, e2, e3] at h
  exact h
theorem W6_v3 : W6 m ρ c (Proc.devRef .tc main_v3) = srcOf (m ((c : Thread nD τ).loc main_arg5)) :=
  (W6_of_ne m ρ c main_v3 (by decide)).trans (W5_v3 m ρ c)
theorem W6_v6 : W6 m ρ c (Proc.devRef .tc main_v6) = tgtOf (m ((c : Thread nD τ).loc main_arg5)) :=
  (W6_of_ne m ρ c main_v6 (by decide)).trans (W5_v6 m ρ c)
theorem W6_arg4 : W6 m ρ c (Proc.devRef .tc main_arg4) = m ((c : Thread nD τ).loc main_arg4) :=
  (W6_of_ne m ρ c main_arg4 (by decide)).trans (W5_arg4 m ρ c)
theorem W6_v15 : W6 m ρ c (Proc.devRef .tc main_v15) = disCol (tgtOf (m ((c : Thread nD τ).loc main_arg5))) :=
  (W6_arr m ρ c 1).trans ((((dat1 (V5 m ρ) c).arrAt_in 1 rfl _).trans (A_eq1 (V5 m ρ) c 1)).trans (W5_v15 m ρ c))

/-! ## At the third region's entry, and through it -/

theorem W7_v38 : W7 m ρ c (Proc.devRef .tc main_v38)
    = aggr2 (srcOf (m ((c : Thread nD τ).loc main_arg5))) (tgtOf (m ((c : Thread nD τ).loc main_arg5)))
        (Cert.GCN.hs2 (aggr16 (srcOf (m ((c : Thread nD τ).loc main_arg5))) (tgtOf (m ((c : Thread nD τ).loc main_arg5)))
          (Cert.GCN.hs0 (m ((c : Thread nD τ).loc main_arg0)) (m ((c : Thread nD τ).loc main_arg1))
            (disCol (tgtOf (m ((c : Thread nD τ).loc main_arg5))))))
          (disCol (tgtOf (m ((c : Thread nD τ).loc main_arg5))))
          (shapeCast S1x16 (m ((c : Thread nD τ).loc main_arg2)) shapeCasts_S16_S1x16) (m ((c : Thread nD τ).loc main_arg3))) := by
  refine (ops2_v38 _).trans ?_
  rw [W6_v3, W6_v6, W6_v28]
theorem W7_v39 : W7 m ρ c (Proc.devRef .tc main_v39) = shapeCast S1x2 (m ((c : Thread nD τ).loc main_arg4)) shapeCasts_S2_S1x2 := by
  refine (ops2_v39 _).trans ?_
  rw [W6_arg4]
theorem W7_v15 : W7 m ρ c (Proc.devRef .tc main_v15) = disCol (tgtOf (m ((c : Thread nD τ).loc main_arg5))) := (ops2_v15 _).trans (W6_v15 m ρ c)

/-- THE RESULT BUFFER at the program's end is `kernelOut` of the argument arrays. -/
theorem W8_v40 : W8 m ρ c (Proc.devRef .tc main_v40)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have h := (W8_arr m ρ c 3).trans (Cert.KernelIdeal.RV2.region2 (V7 m ρ) c)
  have e0 : V7 m ρ c main_v38 = _ := W7_v38 m ρ c
  have e1 : V7 m ρ c main_v15 = _ := W7_v15 m ρ c
  have e2 : V7 m ρ c main_v39 = _ := W7_v39 m ρ c
  rw [e0, e1, e2] at h
  exact h

end Cert.KernelIdeal.KO

end
-- ==== Proof.IdxLemmas.lean ====
/-
  Row gathers and row scatters read at an index, and the one law of the extended reals that joins the two programs.

  * A gather of rows: an operand `[N, C]` (or `[N]`) read at start indices `[E, 1]`; result row `e` is the operand's row
    at the start index `idx[e, 0]`, read as a signed integer and clamped into `[0, N - 1]` (`clampRow`).
  * A scatter of rows: update row `e` lands on operand row `idx[e, 0]`, read signed and NOT clamped; an update whose row
    is outside the operand is dropped. So an update that lands on row `n` has start index exactly `n`.
  * A start index in range is its own clamp, and is not negative, so the wrap-around of negative indices leaves it alone.
  * Scaling a finite sum of extended reals by a factor that is non-negative and not `+∞` scales every term.
-/
import Idealize.ShloMosaic.Lib.Pipeline.Value
import Idealize.ShloMosaic.Lib.ValueIdx
import Idealize.ShloMosaic.PureOps.Ideal

noncomputable section

namespace Cert.GCN.Idx

open Idealize.ShloMosaic Idealize.ShloMosaic.ValueIdx
open scoped BigOperators

variable {α : Type}

/-! ## The clamp -/

/-- A 32-bit start index read as a signed integer and clamped into `[0, N - 1]`. -/
def clampRow (N : ℕ) (hN : 0 < N) (v : BitVec 32) : Fin N := ⟨min v.toInt.toNat (N - 1), by omega⟩

/-- An index whose signed value is the row `n` clamps to `n`. -/
theorem clampRow_of_toInt {N : ℕ} (hN : 0 < N) {v : BitVec 32} {n : Fin N} (h : v.toInt = (n.val : ℤ)) :
    clampRow N hN v = n := by
  apply Fin.ext
  show min v.toInt.toNat (N - 1) = n.val
  rw [h, Int.toNat_natCast]
  have := n.isLt
  omega

/-- An index whose signed value is not negative is not below zero in the signed order: the wrap-around leaves it alone. -/
theorem select_slt_zero_of_nonneg {v a : BitVec 32} (h : 0 ≤ v.toInt) :
    Scalar.select (IntOp.cmpi .slt v 0#32) a v = v := by
  have hs : v.slt 0#32 = false := by
    rw [BitVec.slt_eq_decide]
    simp only [BitVec.toInt_zero, decide_eq_false_iff_not, not_lt]
    exact h
  show (if BitVec.ofBool (v.slt 0#32) = 1 then a else v) = v
  rw [hs]
  rfl

/-! ## A gather of rows of a matrix -/

/-- `x[idx]` for a matrix `x : [N, C]` and start indices `[E, 1]`: offset axis 1, collapsed axis 0, index vector axis 1. -/
abbrev rowsDims (N C E : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the gather reads: the start index `idx[e, 0]`, read signed and clamped. -/
theorem rows_operandIdx0 {N C E : ℕ}
    (wf : GatherDims.WF ⟨2, ![N, C]⟩ ⟨2, ![E, 1]⟩ ⟨2, ![E, C]⟩ [1] [0] [] [0] [] 1 ![1, C])
    (idx : IVec ⟨2, ![E, 1]⟩ 32) (e : Fin E) (j : Fin C) :
    ((rowsDims N C E wf).operandIdx (ix2 e j) idx (0 : Fin 2)).val = min (idx (ix2 e (0 : Fin 1))).toInt.toNat (N - 1) := by
  show (rowsDims N C E wf).start (ix2 e j) idx (0 : Fin 2) + (rowsDims N C E wf).batchCoord (ix2 e j) (0 : Fin 2)
      + (rowsDims N C E wf).offCoord (ix2 e j) (0 : Fin 2) = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 2) ∈ (rowsDims N C E wf).startIndexMap from List.mem_singleton.mpr rfl)]
  have hsi : (rowsDims N C E wf).siIdx (ix2 e j) ⟨List.idxOf (0 : Fin 2) (rowsDims N C E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The column the gather reads: the result's own column. -/
theorem rows_operandIdx1 {N C E : ℕ}
    (wf : GatherDims.WF ⟨2, ![N, C]⟩ ⟨2, ![E, 1]⟩ ⟨2, ![E, C]⟩ [1] [0] [] [0] [] 1 ![1, C])
    (idx : IVec ⟨2, ![E, 1]⟩ 32) (e : Fin E) (j : Fin C) :
    ((rowsDims N C E wf).operandIdx (ix2 e j) idx (1 : Fin 2)).val = j.val := by
  show (rowsDims N C E wf).start (ix2 e j) idx (1 : Fin 2) + (rowsDims N C E wf).batchCoord (ix2 e j) (1 : Fin 2)
      + (rowsDims N C E wf).offCoord (ix2 e j) (1 : Fin 2) = _
  have hst : (rowsDims N C E wf).start (ix2 e j) idx (1 : Fin 2) = 0 := by
    unfold GatherDims.start
    rw [dif_neg (show (1 : Fin 2) ∉ ([0] : List (Fin 2)) from by decide)]
  rw [GatherDims.batchCoord_eq_zero _ _ _ List.not_mem_nil, Nat.add_zero, hst, Nat.zero_add]
  unfold GatherDims.offCoord
  rw [dif_pos (show (1 : Fin 2) ∈ (rowsDims N C E wf).sKept from
    (GatherDims.mem_sKept _ _).mpr ⟨(show (1 : Fin 2) ∉ ([0] : List (Fin 2)) from by decide), List.not_mem_nil⟩)]
  rfl

/-- The gather read at `(e, j)`: the operand at row `clamp idx[e, 0]`, column `j`. -/
theorem gather_rows_apply {N C E : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (j : Fin C) :
    Host.gather (rowsDims N C E wf) x idx (ix2 e j) = x (ix2 (clampRow N hN (idx (ix2 e (0 : Fin 1)))) j) := by
  unfold Host.gather
  refine congrArg x (funext fun a => Fin.ext ?_)
  match a with
  | ⟨0, _⟩ => exact rows_operandIdx0 wf idx e j
  | ⟨1, _⟩ => exact rows_operandIdx1 wf idx e j

/-! ## A gather of entries of a vector -/

/-- `x[idx]` for a vector `x : [N]` and start indices `[E, 1]`: no offset axis, collapsed axis 0, index vector axis 1. -/
abbrev entriesDims (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather read at `e`: the operand at `clamp idx[e, 0]`. -/
theorem gather_entries_apply {N E : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E) :
    Host.gather (entriesDims N E wf) x idx (ix1 e) = x (ix1 (clampRow N hN (idx (ix2 e (0 : Fin 1))))) := by
  unfold Host.gather
  refine congrArg x (funext fun a => Fin.ext ?_)
  obtain rfl : a = 0 := Subsingleton.elim _ _
  show (entriesDims N E wf).start (ix1 e) idx 0 + (entriesDims N E wf).batchCoord (ix1 e) 0
      + (entriesDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N E wf).startIndexMap from List.mem_singleton.mpr rfl)]
  have hsi : (entriesDims N E wf).siIdx (ix1 e) ⟨List.idxOf (0 : Fin 1) (entriesDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A scatter of rows -/

/-- `x.at[idx].add(u)` for `x : [N, C]`, scatter indices `[E, 1]`, updates `[E, C]`: window axis 1, inserted axis 0. -/
abbrev rowsScatter (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row an update lands on is its start index, read signed. -/
theorem scatter_rows_start0 {N C E : ℕ} (wf : ScatterDims.WF ⟨2, ![N, C]⟩ ⟨2, ![E, 1]⟩ ⟨2, ![E, C]⟩ [1] [0] [0] 1)
    (idx : IVec ⟨2, ![E, 1]⟩ 32) (e : Fin E) (j : Fin C) :
    (rowsScatter N C E wf).start (ix2 e j) idx (0 : Fin 2) = (idx (ix2 e (0 : Fin 1))).toInt := by
  unfold ScatterDims.start
  rw [dif_pos (show (0 : Fin 2) ∈ (rowsScatter N C E wf).scatterDimsToOperandDims from List.mem_singleton.mpr rfl)]
  have hsi : (rowsScatter N C E wf).siIdx (ix2 e j) ⟨List.idxOf (0 : Fin 2) (rowsScatter N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The row axis is inserted: an update has no window coordinate on it. -/
theorem scatter_rows_window0 {N C E : ℕ} (wf : ScatterDims.WF ⟨2, ![N, C]⟩ ⟨2, ![E, 1]⟩ ⟨2, ![E, C]⟩ [1] [0] [0] 1)
    (e : Fin E) (j : Fin C) : (rowsScatter N C E wf).window (ix2 e j) (0 : Fin 2) = 0 := by
  unfold ScatterDims.window
  rw [dif_neg (show (0 : Fin 2) ∉ (rowsScatter N C E wf).sKept from fun h => by
    have h' : (0 : Fin 2) ∈ (List.finRange 2).filter (· ∉ ([0] : List (Fin 2))) := h
    revert h'; decide)]

/-- AN UPDATE THAT LANDS ON ROW `i 0` HAS START INDEX `i 0`. -/
theorem scatter_rows_lands {N C E : ℕ} (wf : ScatterDims.WF ⟨2, ![N, C]⟩ ⟨2, ![E, 1]⟩ ⟨2, ![E, C]⟩ [1] [0] [0] 1)
    (idx : IVec ⟨2, ![E, 1]⟩ 32) (e : Fin E) (j : Fin C) (i : (⟨2, ![N, C]⟩ : Shape).Idx)
    (h : (rowsScatter N C E wf).resultIdx? (ix2 e j) idx = some i) :
    (idx (ix2 e (0 : Fin 1))).toInt = ((i 0).val : ℤ) := by
  unfold ScatterDims.resultIdx? at h
  split at h
  · rename_i hin
    have h0 := (hin (0 : Fin 2)).1
    rw [scatter_rows_start0, scatter_rows_window0] at h0
    have hi : i = _ := (Option.some.inj h).symm
    have hv : (i 0).val = ((rowsScatter N C E wf).start (ix2 e j) idx (0 : Fin 2)
        + ((rowsScatter N C E wf).window (ix2 e j) (0 : Fin 2) : ℤ)).toNat := by rw [hi]
    rw [scatter_rows_start0, scatter_rows_window0] at hv
    rw [hv]
    simp only [Nat.cast_zero, add_zero] at h0 ⊢
    exact (Int.toNat_of_nonneg h0).symm
  · exact absurd h (by simp)

/-! ## The scaled sum -/

/-- A finite sum of extended reals times a factor that is non-negative and not `+∞` is the sum of the scaled terms. -/
theorem sum_mul_of_nonneg_ne_top {ι : Type} (S : Finset ι) (f : ι → EReal) {d : EReal} (h0 : 0 ≤ d) (ht : d ≠ ⊤) :
    (∑ j ∈ S, f j) * d = ∑ j ∈ S, f j * d := by
  classical
  induction S using Finset.induction_on with
  | empty => simp
  | insert a s ha ih =>
    rw [Finset.sum_insert ha, Finset.sum_insert ha, EReal.right_distrib_of_nonneg_of_ne_top h0 ht, ih]

/-- The inverse square root of a positive extended real is non-negative and not `+∞`. -/
theorem rsqrt_nonneg_ne_top {x : EReal} (h : 0 < x) : 0 ≤ Ideal.rsqrt x ∧ Ideal.rsqrt x ≠ ⊤ := by
  induction x using EReal.rec with
  | bot => exact absurd h (by simp)
  | top => exact ⟨by rw [Ideal.rsqrt_top], by rw [Ideal.rsqrt_top]; exact EReal.zero_ne_top⟩
  | coe r =>
    have hr : 0 < r := by exact_mod_cast h
    rw [Ideal.rsqrt_coe, if_neg (not_lt.mpr hr.le), if_neg hr.ne']
    exact ⟨by exact_mod_cast (inv_nonneg.mpr (Real.sqrt_nonneg r)), EReal.coe_ne_top _⟩

/-! ## An aggregation whose every update carries its target's factor -/

/-- Into an operand of zeros, a scatter-add of updates each of which is another update times the factor `dis` of the row it
    lands on is the scatter-add of those other updates, scaled row by row: the factor leaves the sum, since it is
    non-negative and not `+∞`. `tn e` names the row update `e` lands on whenever it lands inside the operand. -/
theorem aggr_scale {N C E : ℕ} (wf : ScatterDims.WF ⟨2, ![N, C]⟩ ⟨2, ![E, 1]⟩ ⟨2, ![E, C]⟩ [1] [0] [0] 1)
    (x0 : (⟨2, ![N, C]⟩ : Shape).Idx → EReal) (idx : IVec ⟨2, ![E, 1]⟩ 32)
    (updR updK : (⟨2, ![E, C]⟩ : Shape).Idx → EReal) (dis : Fin N → EReal) (tn : Fin E → Fin N)
    (hx0 : ∀ i, x0 i = 0) (hd : ∀ n, 0 ≤ dis n ∧ dis n ≠ ⊤)
    (ht : ∀ (e : Fin E) (n : Fin N), (idx (ix2 e (0 : Fin 1))).toInt = (n.val : ℤ) → tn e = n)
    (hupd : ∀ (e : Fin E) (j' : Fin C), updR (ix2 e j') = updK (ix2 e j') * dis (tn e))
    (n : Fin N) (j : Fin C) :
    Ideal.hostScatterAdd (rowsScatter N C E wf) x0 idx updR (ix2 n j)
      = Ideal.hostScatterAdd (rowsScatter N C E wf) x0 idx updK (ix2 n j) * dis n := by
  unfold Ideal.hostScatterAdd
  rw [hx0, zero_add, zero_add, sum_mul_of_nonneg_ne_top _ _ (hd n).1 (hd n).2]
  refine Finset.sum_congr rfl fun u hu => ?_
  obtain ⟨e, j', rfl⟩ : ∃ (e : Fin E) (j' : Fin C), u = ix2 e j' := ⟨u 0, u 1, eq_ix2 u⟩
  have hl := scatter_rows_lands wf idx e j' (ix2 n j) (Finset.mem_filter.mp hu).2
  rw [hupd, ht e n hl]

end Cert.GCN.Idx

end
-- ==== Proof.AggrScale.lean ====
/-
  The one law that joins the two programs' aggregations.

  With `dis` the vector of per-node scale factors (the inverse square root of a positive in-degree, zero elsewhere), the
  reference multiplies every gathered row `X[src e]` by the edge weight `dis[src e] · dis[tgt e]` before adding it at row `tgt e`;
  the kernel program adds at row `tgt e` the rows of a matrix already scaled by `dis[src e]`, and scales row `t` of the sum by
  `dis[t]` afterwards. The two agree: an update that lands on row `t` has target exactly `t` (a start index inside the array is
  its own wrap-around and its own clamp), so every term of row `t`'s sum carries the factor `dis[t]`; and `dis[t]` is
  non-negative and never `+∞`, so it leaves a finite sum of extended reals term by term, whatever the terms. Products on the
  extended reals are associative and commutative without any finiteness.

  Here: the scale factors at a node and their two bounds; the columns of start indices at an edge; the printed gather and scatter
  records as the generic row gather, entry gather and row scatter; the edge weight at an edge; the law for a matrix of any number
  of columns; its two instances, for sixteen and for two columns.
-/
import proofs.«142645_j55095840473679_2_alg».proof.Proof.KHost
import proofs.«142645_j55095840473679_2_alg».proof.Proof.IdxLemmas
import proofs.«142645_j55095840473679_2_alg».proof.Proof.Gen.ReferenceIdeal
import Idealize.ShloMosaic.PureOps.Ideal.Laws

noncomputable section
namespace Cert.GCN.AS
open Idealize.ShloMosaic Idealize.ShloMosaic.ValueIdx Cert.KernelIdeal Cert.KernelIdeal.Facts₀ Cert.KernelIdeal.KH

/-! ## The scale factors -/

/-- A scalar broadcast to the vector of nodes reads the scalar everywhere. -/
theorem bcast_node_apply {α : Type} (x : S_.Idx → α) (n : Fin 100000) :
    broadcastInDim S100000 ![] bcast_S_S100000 x (ix1 n) = x ix0 :=
  broadcastInDim_apply _ bcast_S_S100000 x (ix1 n) ix0 (fun a => a.elim0)

/-- The zero word as a scalar constant is the extended real zero. -/
theorem zero_const_apply (i : S_.Idx) : constant (F := Ideal) S_ .f32 0x00000000#32 i = (0 : EReal) :=
  show (FloatOps.ofBits (F := Ideal) .f32 0x00000000#32 : EReal) = 0 from Ideal.ofBits_zero_f32

/-- Choosing `r` where `d` is greater than zero and zero elsewhere. -/
theorem select_gt_zero (d r : EReal) :
    Scalar.select (Ideal.cmp .ogt d 0) r (0 : EReal) = if 0 < d then r else 0 := by
  unfold Ideal.cmp Scalar.select
  by_cases h : 0 < d
  · rw [if_pos h, decide_eq_true h]; rfl
  · rw [if_neg h, decide_eq_false h]; rfl

/-- The host's inverse square root of a vector, at a node, is the inverse square root of its entry there. -/
theorem host_rsqrt_apply (dg : FVec Ideal S100000 .f32) (n : Fin 100000) :
    Host.rsqrt (F := Ideal) dg (ix1 n) = Ideal.rsqrt (dg (ix1 n)) := by
  unfold Host.rsqrt
  exact Ideal.hostUnary_rsqrt_def _

/-- The factor of node `n`: the inverse square root of its degree where that is positive, zero elsewhere. -/
theorem disOf_apply (tgt : IVec S6500000 32) (n : Fin 100000) :
    disOf tgt (ix1 n) = if 0 < degOf tgt (ix1 n) then Ideal.rsqrt (degOf tgt (ix1 n)) else 0 := by
  unfold disOf
  rw [select_apply, cmpf_apply, id_eq, bcast_node_apply, zero_const_apply, Ideal.cmpf_def, host_rsqrt_apply]
  generalize degOf tgt (ix1 n) = d
  exact select_gt_zero d (Ideal.rsqrt d)

/-- The scale factors are non-negative and finite above. -/
theorem disOf_nonneg_ne_top (tgt : IVec S6500000 32) (n : Fin 100000) :
    0 ≤ disOf tgt (ix1 n) ∧ disOf tgt (ix1 n) ≠ ⊤ := by
  rw [disOf_apply]
  by_cases h : 0 < degOf tgt (ix1 n)
  · rw [if_pos h]
    exact Idx.rsqrt_nonneg_ne_top h
  · rw [if_neg h]
    exact ⟨le_refl _, EReal.zero_ne_top⟩
/-- The per-edge weight: the source's factor times the target's. -/
def normOf (src tgt : IVec S6500000 32) : FVec Ideal S6500000 .f32 :=
  mulf (Host.gather Cert.ReferenceIdeal.gather_S100000_S6500000x1_S6500000_n_0_n_n_0_1_1 (disOf tgt) (normCol src))
    (Host.gather Cert.ReferenceIdeal.gather_S100000_S6500000x1_S6500000_n_0_n_n_0_1_1 (disOf tgt) (normCol tgt))

/-- The reference's aggregation of a 16-column matrix: every gathered row times its edge's weight, added at the targets. -/
def aggrR16 (src tgt : IVec S6500000 32) (X : FVec Ideal S100000x16 .f32) : FVec Ideal S100000x16 .f32 :=
  Host.scatterAdd scatter_S100000x16_S6500000x1_S6500000x16_1_0_0_1
    (broadcastInDim S100000x16 ![] bcast_S_S100000x16 (constant (F := Ideal) S_ .f32 0x00000000#32)) (col tgt)
    (mulf (Host.gather gather_S100000x16_S6500000x1_S6500000x16_1_0_n_n_0_1_116 X (normCol src))
      (broadcastInDim Cert.ReferenceIdeal.S6500000x16 ![0, 1] Cert.ReferenceIdeal.Facts₀.bcast_S6500000x1_S6500000x16_0_1
        (broadcastInDim S6500000x1 ![0] bcast_S6500000_S6500000x1_0 (normOf src tgt))))

/-- The same for a 2-column matrix. -/
def aggrR2 (src tgt : IVec S6500000 32) (X : FVec Ideal S100000x2 .f32) : FVec Ideal S100000x2 .f32 :=
  Host.scatterAdd scatter_S100000x2_S6500000x1_S6500000x2_1_0_0_1
    (broadcastInDim S100000x2 ![] bcast_S_S100000x2 (constant (F := Ideal) S_ .f32 0x00000000#32)) (col tgt)
    (mulf (Host.gather gather_S100000x2_S6500000x1_S6500000x2_1_0_n_n_0_1_12 X (normCol src))
      (broadcastInDim Cert.ReferenceIdeal.S6500000x2 ![0, 1] Cert.ReferenceIdeal.Facts₀.bcast_S6500000x1_S6500000x2_0_1
        (broadcastInDim S6500000x1 ![0] bcast_S6500000_S6500000x1_0 (normOf src tgt))))

/-! ## Row indices as columns of start indices -/

theorem rows_pos : 0 < 100000 := by decide

/-- A vector of row indices as a column reads, at `(e, 0)`, the vector at `e`. -/
theorem col_apply {α : Type} (v : S6500000.Idx → α) (e : Fin 6500000) :
    broadcastInDim S6500000x1 ![0] bcast_S6500000_S6500000x1_0 v (ix2 e (0 : Fin 1)) = v (ix1 e) :=
  broadcastInDim_apply _ bcast_S6500000_S6500000x1_0 v (ix2 e (0 : Fin 1)) (ix1 e) (fun a => match a with
    | ⟨0, _⟩ => by show e.val = if (6500000 : Nat) = 1 then 0 else e.val; rw [if_neg (by decide)])

/-- A scalar broadcast to the vector of edges reads the scalar everywhere. -/
theorem bcast_edge_apply {α : Type} (x : S_.Idx → α) (e : Fin 6500000) :
    broadcastInDim S6500000 ![] bcast_S_S6500000 x (ix1 e) = x ix0 :=
  broadcastInDim_apply _ bcast_S_S6500000 x (ix1 e) ix0 (fun a => a.elim0)

/-- The wrapped column at `(e, 0)`: the index at `e`, moved up by the number of rows when it is negative. -/
theorem normCol_apply (v : IVec S6500000 32) (e : Fin 6500000) :
    normCol v (ix2 e (0 : Fin 1))
      = Scalar.select (IntOp.cmpi .slt (v (ix1 e)) 0#32) (IntOp.addi (v (ix1 e)) 100000#32) (v (ix1 e)) := by
  unfold normCol
  rw [col_apply, select_apply]
  show Scalar.select (IntOp.cmpi .slt (v (ix1 e)) (broadcastInDim S6500000 ![] bcast_S_S6500000 (constantI S_ 32 0#32) (ix1 e)))
    (IntOp.addi (v (ix1 e)) (broadcastInDim S6500000 ![] bcast_S_S6500000 (constantI S_ 32 100000#32) (ix1 e))) (v (ix1 e)) = _
  rw [bcast_edge_apply, bcast_edge_apply]
  rfl

/-- An edge whose target, read signed, is the row `n` has wrapped and clamped target `n`. -/
theorem target_row (tgt : IVec S6500000 32) (e : Fin 6500000) (n : Fin 100000)
    (h : (col tgt (ix2 e (0 : Fin 1))).toInt = (n.val : ℤ)) :
    Idx.clampRow 100000 rows_pos (normCol tgt (ix2 e (0 : Fin 1))) = n := by
  unfold col at h
  rw [col_apply] at h
  rw [normCol_apply, Idx.select_slt_zero_of_nonneg (by rw [h]; exact Int.natCast_nonneg _)]
  exact Idx.clampRow_of_toInt rows_pos h

/-! ## The printed records are the generic row scatter, row gather and entry gather -/

theorem scatter16_eq : scatter_S100000x16_S6500000x1_S6500000x16_1_0_0_1 = Idx.rowsScatter 100000 16 6500000 scatter_S100000x16_S6500000x1_S6500000x16_1_0_0_1_wf := rfl
theorem gather16_eq : gather_S100000x16_S6500000x1_S6500000x16_1_0_n_n_0_1_116 = Idx.rowsDims 100000 16 6500000 gather_S100000x16_S6500000x1_S6500000x16_1_0_n_n_0_1_116_wf := rfl
theorem scatter2_eq : scatter_S100000x2_S6500000x1_S6500000x2_1_0_0_1 = Idx.rowsScatter 100000 2 6500000 scatter_S100000x2_S6500000x1_S6500000x2_1_0_0_1_wf := rfl
theorem gather2_eq : gather_S100000x2_S6500000x1_S6500000x2_1_0_n_n_0_1_12 = Idx.rowsDims 100000 2 6500000 gather_S100000x2_S6500000x1_S6500000x2_1_0_n_n_0_1_12_wf := rfl
theorem entries_eq : Cert.ReferenceIdeal.gather_S100000_S6500000x1_S6500000_n_0_n_n_0_1_1
    = Idx.entriesDims 100000 6500000 Cert.ReferenceIdeal.Facts₀.gather_S100000_S6500000x1_S6500000_n_0_n_n_0_1_1_wf := rfl

/-! ## The edge weights -/

/-- The weight of edge `e`: the factor of its source row times the factor of its target row. -/
theorem normOf_apply (src tgt : IVec S6500000 32) (e : Fin 6500000) :
    normOf src tgt (ix1 e)
      = disOf tgt (ix1 (Idx.clampRow 100000 rows_pos (normCol src (ix2 e (0 : Fin 1)))))
        * disOf tgt (ix1 (Idx.clampRow 100000 rows_pos (normCol tgt (ix2 e (0 : Fin 1))))) := by
  unfold normOf
  rw [mulf_apply, entries_eq, Idx.gather_entries_apply rows_pos, Idx.gather_entries_apply rows_pos]

/-- On the extended reals the host's scatter-add is the exact sum of the updates that land on each element. -/
theorem scatterAdd_eq {s si u : Shape} (d : ScatterDims s si u) (x : FVec Ideal s .f32) (idx : IVec si 32)
    (upd : FVec Ideal u .f32) : Host.scatterAdd d x idx upd = Ideal.hostScatterAdd d x idx upd := rfl

/-! ## The law, for a matrix of any number of columns -/

/-- Into zeros, adding at the targets the gathered rows of `XR` each times its edge's weight is adding there the gathered rows
    of `XK`, then scaling row `n` by its factor — when row `n'` of `XK` is row `n'` of `XR` times the factor of `n'`: an update
    that lands on row `n` has target `n`, so its weight is the source's factor times the factor of `n`, and that last factor,
    non-negative and not `+∞`, leaves the sum. -/
theorem scale_core {C : ℕ}
    (wfS : ScatterDims.WF ⟨2, ![100000, C]⟩ ⟨2, ![6500000, 1]⟩ ⟨2, ![6500000, C]⟩ [1] [0] [0] 1)
    (wfG : GatherDims.WF ⟨2, ![100000, C]⟩ ⟨2, ![6500000, 1]⟩ ⟨2, ![6500000, C]⟩ [1] [0] [] [0] [] 1 ![1, C])
    (hz : S_.BroadcastsInDim ⟨2, ![100000, C]⟩ (![] : Fin 0 → Fin 2))
    (hb : (⟨2, ![6500000, 1]⟩ : Shape).BroadcastsInDim ⟨2, ![6500000, C]⟩ (![0, 1] : Fin 2 → Fin 2))
    (src tgt : IVec S6500000 32) (XR XK : FVec Ideal ⟨2, ![100000, C]⟩ .f32)
    (hX : ∀ (n' : Fin 100000) (j' : Fin C), XK (ix2 n' j') = XR (ix2 n' j') * disOf tgt (ix1 n'))
    (n : Fin 100000) (j : Fin C) :
    Host.scatterAdd (Idx.rowsScatter 100000 C 6500000 wfS)
        (broadcastInDim ⟨2, ![100000, C]⟩ ![] hz (constant (F := Ideal) S_ .f32 0x00000000#32)) (col tgt)
        (mulf (Host.gather (Idx.rowsDims 100000 C 6500000 wfG) XR (normCol src))
          (broadcastInDim ⟨2, ![6500000, C]⟩ ![0, 1] hb
            (broadcastInDim S6500000x1 ![0] bcast_S6500000_S6500000x1_0 (normOf src tgt)))) (ix2 n j)
      = Host.scatterAdd (Idx.rowsScatter 100000 C 6500000 wfS)
          (broadcastInDim ⟨2, ![100000, C]⟩ ![] hz (constant (F := Ideal) S_ .f32 0x00000000#32)) (col tgt)
          (Host.gather (Idx.rowsDims 100000 C 6500000 wfG) XK (normCol src)) (ix2 n j) * disOf tgt (ix1 n) := by
  rw [scatterAdd_eq, scatterAdd_eq]
  refine Idx.aggr_scale wfS _ (col tgt) _ _ (fun m => disOf tgt (ix1 m))
    (fun e => Idx.clampRow 100000 rows_pos (normCol tgt (ix2 e (0 : Fin 1)))) ?_ ?_ ?_ ?_ n j
  · intro i
    rw [broadcastInDim_apply _ hz _ i ix0 (fun a => a.elim0), zero_const_apply]
  · exact fun m => disOf_nonneg_ne_top tgt m
  · exact fun e m h => target_row tgt e m h
  · intro e j'
    rw [mulf_apply, Idx.gather_rows_apply rows_pos, Idx.gather_rows_apply rows_pos,
      broadcastInDim_apply _ hb _ (ix2 e j') (ix2 e (0 : Fin 1)) (fun a => match a with
        | ⟨0, _⟩ => by show e.val = if (6500000 : Nat) = 1 then 0 else e.val; rw [if_neg (by decide)]
        | ⟨1, _⟩ => by show 0 = if (1 : Nat) = 1 then 0 else j'.val; rw [if_pos rfl]),
      col_apply, normOf_apply, hX, mul_assoc]

/-! ## The two aggregations of the program -/

/-- The reference's aggregation of a 16-column matrix is the kernel program's aggregation of the matrix scaled row by row, scaled
    again row by row. -/
theorem aggr16_scale (src tgt : IVec S6500000 32) (XR XK : FVec Ideal S100000x16 .f32)
    (hX : ∀ (n' : Fin 100000) (j' : Fin 16), XK (ix2 n' j') = XR (ix2 n' j') * disOf tgt (ix1 n'))
    (n : Fin 100000) (j : Fin 16) :
    aggrR16 src tgt XR (ix2 n j) = aggr16 src tgt XK (ix2 n j) * disOf tgt (ix1 n) := by
  unfold aggrR16 aggr16
  rw [scatter16_eq, gather16_eq]
  exact scale_core _ _ _ _ src tgt XR XK hX n j

/-- The same for a 2-column matrix. -/
theorem aggr2_scale (src tgt : IVec S6500000 32) (XR XK : FVec Ideal S100000x2 .f32)
    (hX : ∀ (n' : Fin 100000) (j' : Fin 2), XK (ix2 n' j') = XR (ix2 n' j') * disOf tgt (ix1 n'))
    (n : Fin 100000) (j : Fin 2) :
    aggrR2 src tgt XR (ix2 n j) = aggr2 src tgt XK (ix2 n j) * disOf tgt (ix1 n) := by
  unfold aggrR2 aggr2
  rw [scatter2_eq, gather2_eq]
  exact scale_core _ _ _ _ src tgt XR XK hX n j

end Cert.GCN.AS

end
-- ==== Proof.RefLsm.lean ====
/-
  The reference's last stage, the row-wise log-softmax over two classes, read at an index.

  From the logits `z` the reference takes each row's maximum `M` over the two columns, folded from negative infinity, and
  the maximum of that with negative infinity again (which changes nothing, `M` being a fold of `max` from that very value);
  subtracts it; exponentiates; sums each row's two exponentials from zero; takes the logarithm; subtracts. So at `(n, c)` the
  result is `(z n c − M n) − log (∑ c', exp (z n c' − M n))`.
-/
import proofs.«142645_j55095840473679_2_alg».proof.Proof.RefRead
import proofs.«142645_j55095840473679_2_alg».proof.Proof.Spec
import Idealize.ShloMosaic.Lib.ValueIdx
import Idealize.ShloMosaic.PureOps.Reduce
import Idealize.ShloMosaic.PureOps.Ideal.Laws

noncomputable section

namespace Cert.ReferenceIdeal.RL

open Idealize.ShloMosaic Idealize.ShloMosaic.ValueIdx Cert.ReferenceIdeal Cert.ReferenceIdeal.Gen Cert.ReferenceIdeal.ReadP
open scoped BigOperators

/-! ## The row maximum -/

/-- The shape fact behind the two row reductions: dropping the column axis of `[100000, 2]` leaves `[100000]`. -/
theorem red : S100000x2.Reduces [1] S100000 := by decide

/-- The host's maximum-reduce over the columns, at row `n`: the fold of `max`, from the initial value, over the row's two entries. -/
theorem rowmax_at (Z : S100000x2.Idx → EReal) (init : S_.Idx → EReal) (n : Fin 100000) :
    Host.reduce (FloatOps.maximumf (F := Ideal) (φ := .f32)) Z init reducesTo_S100000x2_S100000_d1 h_S_ (ix1 n)
      = (Finset.univ : Finset (Fin 2)).fold max (init (Shape.Idx.first h_S_)) (fun c' => Z (ix2 n c')) := by
  rw [Host.reduce_eq_fold_single _ Z init reducesTo_S100000x2_S100000_d1 red h_S_ (ix1 n)]
  have e : (Z ∘ red.lift (ix1 n)) = fun c' : Fin 2 => Z (ix2 n c') :=
    funext fun k => congrArg Z (funext fun a => Fin.ext (by match a with | ⟨0, _⟩ => rfl | ⟨1, _⟩ => rfl))
  rw [e]
  rfl

/-- A fold of `max` started from `b` is at least `b`, so taking `max` with `b` once more changes nothing. -/
theorem max_fold_self (b : EReal) (f : Fin 2 → EReal) :
    max b ((Finset.univ : Finset (Fin 2)).fold max b f) = (Finset.univ : Finset (Fin 2)).fold max b f :=
  max_eq_right ((Finset.le_fold_max b).mpr (Or.inl le_rfl))

/-! ## The stages of the row-wise log-softmax at an index -/

/-- The shifted row maximum at row `n`: `max` of negative infinity with the row's folded maximum, which is that maximum. -/
theorem shift_at (x0 : (⟨S100000x256, .f32⟩ : BufTy).Contents (Elt Ideal)) (x1 : (⟨S256x16, .f32⟩ : BufTy).Contents (Elt Ideal)) (x2 : (⟨S16, .f32⟩ : BufTy).Contents (Elt Ideal)) (x3 : (⟨S16x2, .f32⟩ : BufTy).Contents (Elt Ideal)) (x4 : (⟨S2, .f32⟩ : BufTy).Contents (Elt Ideal)) (x5 : (⟨S2x6400000, .i32⟩ : BufTy).Contents (Elt Ideal)) (n : Fin 100000) :
    val_main_call2_v2 (F := Ideal) x0 x1 x2 x3 x4 x5 (ix1 n) = (Finset.univ : Finset (Fin 2)).fold max Cert.GCN.negInf (fun c' => val_main_v64 (F := Ideal) x0 x1 x2 x3 x4 x5 (ix2 n c')) := by
  rw [val_main_call2_v2_apply, val_main_call2_v1_apply, val_main_call2_cst_0_apply]
  unfold val_main_call2_v0
  refine (congrArg (FloatOps.maximumf (F := Ideal) (FloatOps.ofBits .f32 0xFF800000#32)) (rowmax_at _ _ n)).trans ?_
  rw [val_main_call2_cst_apply]
  exact max_fold_self _ _

/-- The logit `(n, c)` less its row's maximum. -/
theorem centred_at (x0 : (⟨S100000x256, .f32⟩ : BufTy).Contents (Elt Ideal)) (x1 : (⟨S256x16, .f32⟩ : BufTy).Contents (Elt Ideal)) (x2 : (⟨S16, .f32⟩ : BufTy).Contents (Elt Ideal)) (x3 : (⟨S16x2, .f32⟩ : BufTy).Contents (Elt Ideal)) (x4 : (⟨S2, .f32⟩ : BufTy).Contents (Elt Ideal)) (x5 : (⟨S2x6400000, .i32⟩ : BufTy).Contents (Elt Ideal)) (n : Fin 100000) (c : Fin 2) :
    val_main_call2_v5 (F := Ideal) x0 x1 x2 x3 x4 x5 (ix2 n c) = val_main_v64 (F := Ideal) x0 x1 x2 x3 x4 x5 (ix2 n c) - (Finset.univ : Finset (Fin 2)).fold max Cert.GCN.negInf (fun c' => val_main_v64 (F := Ideal) x0 x1 x2 x3 x4 x5 (ix2 n c')) := by
  rw [val_main_call2_v5_apply, val_main_call2_v4_apply, val_main_call2_v3_apply]
  rw [show idx_main_call2_v3 (idx_main_call2_v4 (ix2 n c)) = ix1 n from
    funext fun a => Fin.ext (by match a with | ⟨0, _⟩ => rfl)]
  rw [shift_at]
  exact Ideal.subf_def _ _

/-- The sum over row `n` of the exponentials of the centred logits: the float sum's initial word is zero. -/
theorem sumexp_at (x0 : (⟨S100000x256, .f32⟩ : BufTy).Contents (Elt Ideal)) (x1 : (⟨S256x16, .f32⟩ : BufTy).Contents (Elt Ideal)) (x2 : (⟨S16, .f32⟩ : BufTy).Contents (Elt Ideal)) (x3 : (⟨S16x2, .f32⟩ : BufTy).Contents (Elt Ideal)) (x4 : (⟨S2, .f32⟩ : BufTy).Contents (Elt Ideal)) (x5 : (⟨S2x6400000, .i32⟩ : BufTy).Contents (Elt Ideal)) (n : Fin 100000) :
    val_main_call2_v7 (F := Ideal) x0 x1 x2 x3 x4 x5 (ix1 n)
      = ∑ c' : Fin 2, Ideal.exp (val_main_v64 (F := Ideal) x0 x1 x2 x3 x4 x5 (ix2 n c') - (Finset.univ : Finset (Fin 2)).fold max Cert.GCN.negInf (fun c' => val_main_v64 (F := Ideal) x0 x1 x2 x3 x4 x5 (ix2 n c'))) := by
  rw [val_main_call2_v7_apply, val_main_call2_cst_1_apply]
  refine (congrArg (· + _) Ideal.ofBits_zero_f32).trans ?_
  rw [zero_add]
  refine Finset.sum_congr rfl fun k _ => ?_
  rw [show idx_main_call2_v7 (ix1 n) k = ix2 n k from
    funext fun a => Fin.ext (by match a with | ⟨0, _⟩ => rfl | ⟨1, _⟩ => rfl)]
  rw [val_main_call2_v6_apply, centred_at]
  exact Ideal.hostUnary_exp_def _

/-- THE LAST STAGE at `(n, c)`: the centred logit less the logarithm of the row's sum of exponentials. -/
theorem ref_lsm (x0 : (⟨S100000x256, .f32⟩ : BufTy).Contents (Elt Ideal)) (x1 : (⟨S256x16, .f32⟩ : BufTy).Contents (Elt Ideal)) (x2 : (⟨S16, .f32⟩ : BufTy).Contents (Elt Ideal)) (x3 : (⟨S16x2, .f32⟩ : BufTy).Contents (Elt Ideal)) (x4 : (⟨S2, .f32⟩ : BufTy).Contents (Elt Ideal)) (x5 : (⟨S2x6400000, .i32⟩ : BufTy).Contents (Elt Ideal)) (n : Fin 100000) (c : Fin 2) :
    val_main_v65 (F := Ideal) x0 x1 x2 x3 x4 x5 (ix2 n c)
      = (val_main_v64 (F := Ideal) x0 x1 x2 x3 x4 x5 (ix2 n c)
          - (Finset.univ : Finset (Fin 2)).fold max Cert.GCN.negInf (fun c' => val_main_v64 (F := Ideal) x0 x1 x2 x3 x4 x5 (ix2 n c')))
        - Ideal.log (∑ c' : Fin 2, Ideal.exp (val_main_v64 (F := Ideal) x0 x1 x2 x3 x4 x5 (ix2 n c')
          - (Finset.univ : Finset (Fin 2)).fold max Cert.GCN.negInf (fun c' => val_main_v64 (F := Ideal) x0 x1 x2 x3 x4 x5 (ix2 n c')))) := by
  rw [val_main_v65_apply, val_main_call2_v10_apply, val_main_call2_v9_apply, val_main_call2_v8_apply]
  rw [show idx_main_call2_v8 (idx_main_call2_v10 (ix2 n c)) = ix1 n from
    funext fun a => Fin.ext (by match a with | ⟨0, _⟩ => rfl)]
  rw [centred_at, sumexp_at, Ideal.hostUnary_log_def]
  exact Ideal.subf_def _ _

end Cert.ReferenceIdeal.RL

end
-- ==== Proof.Bridge.lean ====
/-
  The reference's result is the kernel program's, as functions of the six arguments over the extended reals.

  Both programs compute the same scale factors `dis` from the targets' degrees (the same term on both sides). Layer by
  layer: the kernel's first dense stage is the reference's product `x · W1` with row `n` scaled by `dis n` (`hs0_eq`); the
  reference weighs every gathered row by `dis[src e] · dis[tgt e]` before adding it at its target, the kernel adds the rows
  it has already scaled by `dis[src e]` and scales the aggregate of row `t` by `dis t` afterwards — equal, since an update
  that lands on row `t` has target `t` and `dis t` is non-negative and not `+∞` (`aggr16_scale`, `aggr2_scale`); so the
  pre-activations agree (`v46_eq`), hence the rectified rows, hence the second dense stage (`hs2_eq`) and the logits
  (`v64_eq`); both then take the same row-wise log-softmax (`ref_lsm` on the reference's side, the last region's
  whole-array function on the kernel's). No finiteness of the inputs is used.
-/
import proofs.«142645_j55095840473679_2_alg».proof.Proof.RefRead
import proofs.«142645_j55095840473679_2_alg».proof.Proof.KHost
import proofs.«142645_j55095840473679_2_alg».proof.Proof.AggrScale
import proofs.«142645_j55095840473679_2_alg».proof.Proof.RefLsm
import proofs.«142645_j55095840473679_2_alg».proof.Proof.LibLayoutCols
import Idealize.ShloMosaic.Lib.ValueLayout

noncomputable section

namespace Cert.GCN.Bridge

open Idealize.ShloMosaic Idealize.ShloMosaic.ValueIdx
open Cert.KernelIdeal Cert.KernelIdeal.Facts₀ Cert.KernelIdeal.KH Cert.GCN.AS
open Cert.ReferenceIdeal.ReadP

variable (x0 : FVec Ideal S100000x256 .f32) (x1 : FVec Ideal S256x16 .f32) (x2 : FVec Ideal S16 .f32)
  (x3 : FVec Ideal S16x2 .f32) (x4 : FVec Ideal S2 .f32) (x5 : IVec S2x6400000 32)

/-! ## The reference's stages in the kernel's vocabulary -/

/-- The reference's first aggregation is `aggrR16` of its first product. -/
theorem r_v43 : val_main_v43 (F := Ideal) x0 x1 x5 = aggrR16 (srcOf x5) (tgtOf x5) (val_main_v30 (F := Ideal) x0 x1) := rfl

/-- The reference's second aggregation is `aggrR2` of its second product. -/
theorem r_v61 : val_main_v61 (F := Ideal) x0 x1 x2 x3 x5
    = aggrR2 (srcOf x5) (tgtOf x5) (val_main_v48 (F := Ideal) x0 x1 x2 x3 x5) := rfl

/-! ## Small readings -/

/-- The column of scale factors at row `n` is the factor of `n`. -/
theorem disCol_apply (tgt : IVec S6500000 32) (n : Fin 100000) : disCol tgt (ix2 n (0 : Fin 1)) = disOf tgt (ix1 n) :=
  Cert.LibLayoutCols.shapeCast_a_a1_apply (disOf tgt) shapeCasts_S100000_S100000x1 n 0

/-- The reference's first bias, broadcast over the rows, at `(n, j)` is the bias row at `j`. -/
theorem v45_apply (n : Fin 100000) (j : Fin 16) :
    val_main_v45 (F := Ideal) x2 (ix2 n j) = shapeCast S1x16 x2 shapeCasts_S16_S1x16 (ix2 (0 : Fin 1) j) := by
  rw [val_main_v45_apply, val_main_v44_apply, shapeCast_a_1a_apply]
  refine congrArg x2 (funext fun a => ?_)
  match a with
  | ⟨0, _⟩ => rfl

/-- The reference's second bias, broadcast over the rows, at `(n, c)` is the bias row at `c`. -/
theorem v63_apply (n : Fin 100000) (c : Fin 2) :
    val_main_v63 (F := Ideal) x4 (ix2 n c) = shapeCast S1x2 x4 shapeCasts_S2_S1x2 (ix2 (0 : Fin 1) c) := by
  rw [val_main_v63_apply, val_main_v62_apply, shapeCast_a_1a_apply]
  refine congrArg x4 (funext fun a => ?_)
  match a with
  | ⟨0, _⟩ => rfl

/-! ## The first layer -/

/-- The kernel's first dense stage is the reference's product with every row scaled by its factor. -/
theorem hs0_eq (n' : Fin 100000) (j' : Fin 16) :
    Cert.GCN.hs0 x0 x1 (disCol (tgtOf x5)) (ix2 n' j')
      = val_main_v30 (F := Ideal) x0 x1 (ix2 n' j') * disOf (tgtOf x5) (ix1 n') := by
  rw [val_main_v30_apply]
  show Cert.GCN.hs0c x0 x1 (disCol (tgtOf x5)) n' j' = _
  unfold Cert.GCN.hs0c
  rw [disCol_apply]
  have el : ∀ k : Fin 256, lidx_main_v30 (ix2 n' j') k = ix2 n' k := fun k => funext fun a => by
    match a with
    | ⟨0, _⟩ => rfl
    | ⟨1, _⟩ => rfl
  have er : ∀ k : Fin 256, ridx_main_v30 (ix2 n' j') k = ix2 k j' := fun k => funext fun a => by
    match a with
    | ⟨0, _⟩ => rfl
    | ⟨1, _⟩ => rfl
  simp only [el, er]

/-- After the first layer's bias: the reference's pre-activation is the kernel's aggregate scaled by the row's factor, plus the bias. -/
theorem v46_eq (n : Fin 100000) (j : Fin 16) :
    val_main_v46 (F := Ideal) x0 x1 x2 x5 (ix2 n j)
      = aggr16 (srcOf x5) (tgtOf x5) (Cert.GCN.hs0 x0 x1 (disCol (tgtOf x5))) (ix2 n j) * disCol (tgtOf x5) (ix2 n (0 : Fin 1))
        + shapeCast S1x16 x2 shapeCasts_S16_S1x16 (ix2 (0 : Fin 1) j) := by
  rw [val_main_v46_apply, r_v43, aggr16_scale (srcOf x5) (tgtOf x5) _ _ (hs0_eq x0 x1 x5) n j, v45_apply, disCol_apply]
  rfl

/-! ## The second layer -/

/-- The kernel's second dense stage is the reference's second product with every row scaled by its factor. -/
theorem hs2_eq (n' : Fin 100000) (c' : Fin 2) :
    Cert.GCN.hs2 (aggr16 (srcOf x5) (tgtOf x5) (Cert.GCN.hs0 x0 x1 (disCol (tgtOf x5)))) (disCol (tgtOf x5))
        (shapeCast S1x16 x2 shapeCasts_S16_S1x16) x3 (ix2 n' c')
      = val_main_v48 (F := Ideal) x0 x1 x2 x3 x5 (ix2 n' c') * disOf (tgtOf x5) (ix1 n') := by
  rw [val_main_v48_apply]
  show Cert.GCN.hs2c _ _ _ x3 n' c' = _
  unfold Cert.GCN.hs2c
  rw [disCol_apply]
  refine congrArg (· * disOf (tgtOf x5) (ix1 n')) (Finset.sum_congr rfl fun k _ => ?_)
  have el : lidx_main_v48 (ix2 n' c') k = ix2 n' k := funext fun a => by
    match a with
    | ⟨0, _⟩ => rfl
    | ⟨1, _⟩ => rfl
  have er : ridx_main_v48 (ix2 n' c') k = ix2 k c' := funext fun a => by
    match a with
    | ⟨0, _⟩ => rfl
    | ⟨1, _⟩ => rfl
  rw [el, er, val_main_v47_apply, v46_eq, val_main_call1_v0_apply, val_main_call1_cst_apply, disCol_apply]
  show _ = max _ (Ideal.ofBits .f32 0x00000000#32) * _
  rw [Ideal.ofBits_zero_f32]

/-- The reference's logits are the kernel's: the second aggregate scaled by the row's factor, plus the bias. -/
theorem v64_eq (n : Fin 100000) (c : Fin 2) :
    val_main_v64 (F := Ideal) x0 x1 x2 x3 x4 x5 (ix2 n c)
      = Cert.GCN.logit
          (aggr2 (srcOf x5) (tgtOf x5)
            (Cert.GCN.hs2 (aggr16 (srcOf x5) (tgtOf x5) (Cert.GCN.hs0 x0 x1 (disCol (tgtOf x5)))) (disCol (tgtOf x5))
              (shapeCast S1x16 x2 shapeCasts_S16_S1x16) x3))
          (disCol (tgtOf x5)) (shapeCast S1x2 x4 shapeCasts_S2_S1x2) n c := by
  rw [val_main_v64_apply, r_v61, aggr2_scale (srcOf x5) (tgtOf x5) _ _ (hs2_eq x0 x1 x2 x3 x5) n c, v63_apply]
  unfold Cert.GCN.logit
  rw [disCol_apply]
  rfl

/-! ## The whole -/

/-- THE REFERENCE'S RESULT IS THE KERNEL'S, as functions of the six arguments over the extended reals. -/
theorem bridge : val_main_v65 (F := Ideal) x0 x1 x2 x3 x4 x5 = kernelOut x0 x1 x2 x3 x4 x5 := by
  funext i
  obtain ⟨n, c, rfl⟩ : ∃ (n : Fin 100000) (c : Fin 2), i = ix2 n c := ⟨i 0, i 1, eq_ix2 i⟩
  rw [Cert.ReferenceIdeal.RL.ref_lsm]
  show _ = Cert.GCN.lsmc _ _ _ n c
  unfold Cert.GCN.lsmc Cert.GCN.rowMax
  simp only [v64_eq]

end Cert.GCN.Bridge

end
-- ==== Proof.lean ====
/-
  The proof of `Cert.Claim` (proofs.«142645_j55095840473679_2_alg».proof.Defs): the kernel program's frame, its idealization's frame, the idealized
  reference's frame, the idealization being the program's own text, and the two idealized programs ending with equal results
  from memories that agree on the arguments.

  What the two programs compute. A two-layer graph convolution with symmetric degree normalisation, followed by a row-wise
  log-softmax over two classes. The edge list gets one self-loop per node; `deg` is the in-degree of every node and
  `dis = deg^(-1/2)` where the degree is positive, `0` elsewhere. A layer sends a feature matrix `H` to
  `out[t] = Σ_{e : tgt e = t} dis[src e] · dis[tgt e] · (H · W)[src e] + b`; the first layer is followed by `relu`, the second
  by the log-softmax. The reference forms the per-edge weight `dis[src e] · dis[tgt e]`, scales every gathered row by it and
  scatter-adds the scaled rows. The kernel program folds the weight into the dense stages: each dense stage scales row `n`
  of `H · W` by `dis[n]` before the gather, the gathered rows are scatter-added unscaled, and the next stage scales row `t`
  of the aggregate by `dis[t]` before it adds the bias.

  Why they agree over the extended reals. An update that lands on row `t` of a scatter-add has target `t`, so every term of
  row `t`'s sum carries the same factor `dis[t]`; `dis` is non-negative and never `+∞`, and multiplication by such a factor
  distributes over a finite sum of extended reals term by term, whatever the terms are. So the two sums are equal entry by
  entry, and no finiteness of the inputs is used: the precondition is never opened.

  Where each piece is proved.
  * `Region0`, `Region1`, `Region2`: the three dense stages of the kernel program, block by block, each region's result array
    as one function of the arrays the region finds (`Spec` states those functions index by index).
  * `KHost`, `KOut`: the kernel program's host side read as values, and the composition of the stretches of host operations
    with the three regions down to the result buffer (`KFrameP` is the kernel program's run with the result buffer kept).
  * `IdxLemmas`, `AggrScale`: the gathers and the scatters of rows read at an index, and the scaling law.
  * `RefRun`, `RefRead`, `RefLsm`: the reference's run, its stages read at an index, and its log-softmax.
  * `Bridge`: the comparison of the two results.
  The witnesses of the programs' stated facts are the instances the generated `Proof/Gen` modules prove.
-/
import proofs.«142645_j55095840473679_2_alg».proof.Defs
import proofs.«142645_j55095840473679_2_alg».proof.Proof.Gen.Kernel
import proofs.«142645_j55095840473679_2_alg».proof.Proof.Gen.Kernel.Skeleton
import proofs.«142645_j55095840473679_2_alg».proof.Proof.Gen.Kernel.Launch
import proofs.«142645_j55095840473679_2_alg».proof.Proof.Gen.Kernel.Points
import proofs.«142645_j55095840473679_2_alg».proof.Proof.Gen.Kernel.Frame
import proofs.«142645_j55095840473679_2_alg».proof.Proof.Gen.KernelIdeal
import proofs.«142645_j55095840473679_2_alg».proof.Proof.Gen.KernelIdeal.Skeleton
import proofs.«142645_j55095840473679_2_alg».proof.Proof.Gen.KernelIdeal.Launch
import proofs.«142645_j55095840473679_2_alg».proof.Proof.Gen.KernelIdeal.Points
import proofs.«142645_j55095840473679_2_alg».proof.Proof.Gen.KernelIdeal.Frame
import proofs.«142645_j55095840473679_2_alg».proof.Proof.Gen.ReferenceIdeal
import proofs.«142645_j55095840473679_2_alg».proof.Proof.Gen.Pre_finite_inputs
import proofs.«142645_j55095840473679_2_alg».proof.Proof.RefRun
import proofs.«142645_j55095840473679_2_alg».proof.Proof.RefRead
import proofs.«142645_j55095840473679_2_alg».proof.Proof.KFrameP
import proofs.«142645_j55095840473679_2_alg».proof.Proof.KOut
import proofs.«142645_j55095840473679_2_alg».proof.Proof.Bridge
import Idealize.ShloMosaic.Adequacy
import Idealize.ShloMosaic.Init

noncomputable section

/-! ## The claims -/

namespace Cert.Proof.GcnClaims

open Idealize.ShloMosaic Idealize.SL.Sem

/-- The kernel program runs and its argument arrays end unchanged. -/
theorem frame_p : Cert.frame_Kernel := fun m ρ _ => Cert.Kernel.Gen.frame m ρ

/-- The idealized kernel program runs and its argument arrays end unchanged. -/
theorem frame_pi : Cert.frame_KernelIdeal := fun m ρ _ => Cert.KernelIdeal.Gen.frame m ρ

/-- The idealized reference runs and its argument arrays end unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation: it is the program's own text read over the extended reals. -/
theorem preserves : Cert.preserves_Kernel_KernelIdeal := trivial

/-- Over the extended reals, from memories that agree on the arguments, both programs run and end with equal results: the
    kernel program's result buffer ends at the composition of its three dense stages with the two aggregations of the
    argument arrays, the reference's at its own chain of stages, and the two are one function of the arguments. -/
theorem algebraic : Cert.algebraic_KernelIdeal_ReferenceIdeal := by
  intro m ρ m' ρ' _ hagree
  refine ⟨fun c => Cert.KernelIdeal.KH.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KO.W8_v40 m ρ c), (h c).2⟩)
      (Cert.KernelIdeal.GenP.frame_result (F := Ideal) m ρ)
  · refine (θ_run Cert.ReferenceIdeal.defs _ _).mono (fun _ h c => ⟨?_, (h c).2⟩)
      (Cert.ReferenceIdeal.ValueP.run (F := Ideal) m' ρ')
    obtain ⟨a0, a1, a2, a3, a4, a5⟩ := hagree c
    rw [(h c).1, Cert.ReferenceIdeal.ReadP.val_main_v65_eq, Cert.GCN.Bridge.bridge, a0, a1, a2, a3, a4, a5]

end Cert.Proof.GcnClaims

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GcnClaims.frame_p, GcnClaims.frame_pi, GcnClaims.frame_ri, GcnClaims.preserves, GcnClaims.algebraic⟩

end Cert.Proof

end
